-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64x128 : Shape := ⟨3, ![8192, 64, 128]⟩
abbrev S_ : Shape := ⟨0, ![]⟩

class Facts : Prop where
  bcast_S_S8192x64x128 : S_.BroadcastsInDim S8192x64x128 (![] : Fin 0 → Fin S8192x64x128.rank)
  reducesTo_S8192x64x128_S_d0_1_2 : S8192x64x128.ReducesTo [0, 1, 2] S_
  h_S_ : 0 < S_.numel

variable [Facts]

def fn {F : FTy → Type} [FloatOps F] (main_arg0 : FVec F S8192x64x128 .f32) : IVec S_ 1 :=
  let main_v0 : FVec F S8192x64x128 .f32 := Host.absf main_arg0
  let main_cst : FVec F S_ .f32 := constant S_ .f32 0x7F800000#32
  let main_v1 : FVec F S8192x64x128 .f32 := broadcastInDim S8192x64x128 ![] bcast_S_S8192x64x128 main_cst
  let main_v2 : IVec S8192x64x128 1 := cmpf .olt main_v0 main_v1
  let main_c : IVec S_ 1 := constantI S_ 1 1#1
  let main_v3 : IVec S_ 1 := (fun x v => Host.reduce IntOp.andi x v reducesTo_S8192x64x128_S_d0_1_2 h_S_) main_v2 main_c
  main_v3
-- ==== Kernel.lean ====
abbrev S8192x64x128 : Shape := ⟨3, ![8192, 64, 128]⟩
abbrev S8192x2016 : Shape := ⟨2, ![8192, 2016]⟩
abbrev S256x64x128 : Shape := ⟨3, ![256, 64, 128]⟩
abbrev S256x2016 : Shape := ⟨2, ![256, 2016]⟩
abbrev S256x64x64 : Shape := ⟨3, ![256, 64, 64]⟩
abbrev S256x1x1 : Shape := ⟨3, ![256, 1, 1]⟩
abbrev S256x1 : Shape := ⟨2, ![256, 1]⟩
abbrev S256x1x2 : Shape := ⟨3, ![256, 1, 2]⟩
abbrev S256x2 : Shape := ⟨2, ![256, 2]⟩
abbrev S256x1x3 : Shape := ⟨3, ![256, 1, 3]⟩
abbrev S256x3 : Shape := ⟨2, ![256, 3]⟩
abbrev S256x1x4 : Shape := ⟨3, ![256, 1, 4]⟩
abbrev S256x4 : Shape := ⟨2, ![256, 4]⟩
abbrev S256x1x5 : Shape := ⟨3, ![256, 1, 5]⟩
abbrev S256x5 : Shape := ⟨2, ![256, 5]⟩
abbrev S256x1x6 : Shape := ⟨3, ![256, 1, 6]⟩
abbrev S256x6 : Shape := ⟨2, ![256, 6]⟩
abbrev S256x1x7 : Shape := ⟨3, ![256, 1, 7]⟩
abbrev S256x7 : Shape := ⟨2, ![256, 7]⟩
abbrev S256x1x8 : Shape := ⟨3, ![256, 1, 8]⟩
abbrev S256x8 : Shape := ⟨2, ![256, 8]⟩
abbrev S256x1x9 : Shape := ⟨3, ![256, 1, 9]⟩
abbrev S256x9 : Shape := ⟨2, ![256, 9]⟩
abbrev S256x1x10 : Shape := ⟨3, ![256, 1, 10]⟩
abbrev S256x10 : Shape := ⟨2, ![256, 10]⟩
abbrev S256x1x11 : Shape := ⟨3, ![256, 1, 11]⟩
abbrev S256x11 : Shape := ⟨2, ![256, 11]⟩
abbrev S256x1x12 : Shape := ⟨3, ![256, 1, 12]⟩
abbrev S256x12 : Shape := ⟨2, ![256, 12]⟩
abbrev S256x1x13 : Shape := ⟨3, ![256, 1, 13]⟩
abbrev S256x13 : Shape := ⟨2, ![256, 13]⟩
abbrev S256x1x14 : Shape := ⟨3, ![256, 1, 14]⟩
abbrev S256x14 : Shape := ⟨2, ![256, 14]⟩
abbrev S256x1x15 : Shape := ⟨3, ![256, 1, 15]⟩
abbrev S256x15 : Shape := ⟨2, ![256, 15]⟩
abbrev S256x1x16 : Shape := ⟨3, ![256, 1, 16]⟩
abbrev S256x16 : Shape := ⟨2, ![256, 16]⟩
abbrev S256x1x17 : Shape := ⟨3, ![256, 1, 17]⟩
abbrev S256x17 : Shape := ⟨2, ![256, 17]⟩
abbrev S256x1x18 : Shape := ⟨3, ![256, 1, 18]⟩
abbrev S256x18 : Shape := ⟨2, ![256, 18]⟩
abbrev S256x1x19 : Shape := ⟨3, ![256, 1, 19]⟩
abbrev S256x19 : Shape := ⟨2, ![256, 19]⟩
abbrev S256x1x20 : Shape := ⟨3, ![256, 1, 20]⟩
abbrev S256x20 : Shape := ⟨2, ![256, 20]⟩
abbrev S256x1x21 : Shape := ⟨3, ![256, 1, 21]⟩
abbrev S256x21 : Shape := ⟨2, ![256, 21]⟩
abbrev S256x1x22 : Shape := ⟨3, ![256, 1, 22]⟩
abbrev S256x22 : Shape := ⟨2, ![256, 22]⟩
abbrev S256x1x23 : Shape := ⟨3, ![256, 1, 23]⟩
abbrev S256x23 : Shape := ⟨2, ![256, 23]⟩
abbrev S256x1x24 : Shape := ⟨3, ![256, 1, 24]⟩
abbrev S256x24 : Shape := ⟨2, ![256, 24]⟩
abbrev S256x1x25 : Shape := ⟨3, ![256, 1, 25]⟩
abbrev S256x25 : Shape := ⟨2, ![256, 25]⟩
abbrev S256x1x26 : Shape := ⟨3, ![256, 1, 26]⟩
abbrev S256x26 : Shape := ⟨2, ![256, 26]⟩
abbrev S256x1x27 : Shape := ⟨3, ![256, 1, 27]⟩
abbrev S256x27 : Shape := ⟨2, ![256, 27]⟩
abbrev S256x1x28 : Shape := ⟨3, ![256, 1, 28]⟩
abbrev S256x28 : Shape := ⟨2, ![256, 28]⟩
abbrev S256x1x29 : Shape := ⟨3, ![256, 1, 29]⟩
abbrev S256x29 : Shape := ⟨2, ![256, 29]⟩
abbrev S256x1x30 : Shape := ⟨3, ![256, 1, 30]⟩
abbrev S256x30 : Shape := ⟨2, ![256, 30]⟩
abbrev S256x1x31 : Shape := ⟨3, ![256, 1, 31]⟩
abbrev S256x31 : Shape := ⟨2, ![256, 31]⟩
abbrev S256x1x32 : Shape := ⟨3, ![256, 1, 32]⟩
abbrev S256x32 : Shape := ⟨2, ![256, 32]⟩
abbrev S256x1x33 : Shape := ⟨3, ![256, 1, 33]⟩
abbrev S256x33 : Shape := ⟨2, ![256, 33]⟩
abbrev S256x1x34 : Shape := ⟨3, ![256, 1, 34]⟩
abbrev S256x34 : Shape := ⟨2, ![256, 34]⟩
abbrev S256x1x35 : Shape := ⟨3, ![256, 1, 35]⟩
abbrev S256x35 : Shape := ⟨2, ![256, 35]⟩
abbrev S256x1x36 : Shape := ⟨3, ![256, 1, 36]⟩
abbrev S256x36 : Shape := ⟨2, ![256, 36]⟩
abbrev S256x1x37 : Shape := ⟨3, ![256, 1, 37]⟩
abbrev S256x37 : Shape := ⟨2, ![256, 37]⟩
abbrev S256x1x38 : Shape := ⟨3, ![256, 1, 38]⟩
abbrev S256x38 : Shape := ⟨2, ![256, 38]⟩
abbrev S256x1x39 : Shape := ⟨3, ![256, 1, 39]⟩
abbrev S256x39 : Shape := ⟨2, ![256, 39]⟩
abbrev S256x1x40 : Shape := ⟨3, ![256, 1, 40]⟩
abbrev S256x40 : Shape := ⟨2, ![256, 40]⟩
abbrev S256x1x41 : Shape := ⟨3, ![256, 1, 41]⟩
abbrev S256x41 : Shape := ⟨2, ![256, 41]⟩
abbrev S256x1x42 : Shape := ⟨3, ![256, 1, 42]⟩
abbrev S256x42 : Shape := ⟨2, ![256, 42]⟩
abbrev S256x1x43 : Shape := ⟨3, ![256, 1, 43]⟩
abbrev S256x43 : Shape := ⟨2, ![256, 43]⟩
abbrev S256x1x44 : Shape := ⟨3, ![256, 1, 44]⟩
abbrev S256x44 : Shape := ⟨2, ![256, 44]⟩
abbrev S256x1x45 : Shape := ⟨3, ![256, 1, 45]⟩
abbrev S256x45 : Shape := ⟨2, ![256, 45]⟩
abbrev S256x1x46 : Shape := ⟨3, ![256, 1, 46]⟩
abbrev S256x46 : Shape := ⟨2, ![256, 46]⟩
abbrev S256x1x47 : Shape := ⟨3, ![256, 1, 47]⟩
abbrev S256x47 : Shape := ⟨2, ![256, 47]⟩
abbrev S256x1x48 : Shape := ⟨3, ![256, 1, 48]⟩
abbrev S256x48 : Shape := ⟨2, ![256, 48]⟩
abbrev S256x1x49 : Shape := ⟨3, ![256, 1, 49]⟩
abbrev S256x49 : Shape := ⟨2, ![256, 49]⟩
abbrev S256x1x50 : Shape := ⟨3, ![256, 1, 50]⟩
abbrev S256x50 : Shape := ⟨2, ![256, 50]⟩
abbrev S256x1x51 : Shape := ⟨3, ![256, 1, 51]⟩
abbrev S256x51 : Shape := ⟨2, ![256, 51]⟩
abbrev S256x1x52 : Shape := ⟨3, ![256, 1, 52]⟩
abbrev S256x52 : Shape := ⟨2, ![256, 52]⟩
abbrev S256x1x53 : Shape := ⟨3, ![256, 1, 53]⟩
abbrev S256x53 : Shape := ⟨2, ![256, 53]⟩
abbrev S256x1x54 : Shape := ⟨3, ![256, 1, 54]⟩
abbrev S256x54 : Shape := ⟨2, ![256, 54]⟩
abbrev S256x1x55 : Shape := ⟨3, ![256, 1, 55]⟩
abbrev S256x55 : Shape := ⟨2, ![256, 55]⟩
abbrev S256x1x56 : Shape := ⟨3, ![256, 1, 56]⟩
abbrev S256x56 : Shape := ⟨2, ![256, 56]⟩
abbrev S256x1x57 : Shape := ⟨3, ![256, 1, 57]⟩
abbrev S256x57 : Shape := ⟨2, ![256, 57]⟩
abbrev S256x1x58 : Shape := ⟨3, ![256, 1, 58]⟩
abbrev S256x58 : Shape := ⟨2, ![256, 58]⟩
abbrev S256x1x59 : Shape := ⟨3, ![256, 1, 59]⟩
abbrev S256x59 : Shape := ⟨2, ![256, 59]⟩
abbrev S256x1x60 : Shape := ⟨3, ![256, 1, 60]⟩
abbrev S256x60 : Shape := ⟨2, ![256, 60]⟩
abbrev S256x1x61 : Shape := ⟨3, ![256, 1, 61]⟩
abbrev S256x61 : Shape := ⟨2, ![256, 61]⟩
abbrev S256x1x62 : Shape := ⟨3, ![256, 1, 62]⟩
abbrev S256x62 : Shape := ⟨2, ![256, 62]⟩
abbrev S256x1x63 : Shape := ⟨3, ![256, 1, 63]⟩
abbrev S256x63 : Shape := ⟨2, ![256, 63]⟩

abbrev nBuf : Space → Nat
  | .hbm => 2
  | .vmem => 4
  | .smem => 0
  | _ => 0

abbrev bufTy : (tb : Table) → Fin (tcTables nBuf tb) → BufTy
  | .hbm, ⟨0, _⟩ => ⟨S8192x64x128, .f32⟩
  | .hbm, ⟨1, _⟩ => ⟨S8192x2016, .f32⟩
  | .local _ .vmem, ⟨0, _⟩ => ⟨S256x64x128, .f32⟩
  | .local _ .vmem, ⟨1, _⟩ => ⟨S256x64x128, .f32⟩
  | .local _ .vmem, ⟨2, _⟩ => ⟨S256x2016, .f32⟩
  | .local _ .vmem, ⟨3, _⟩ => ⟨S256x2016, .f32⟩
  | _, _ => ⟨S8192x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2016 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x64x128_S256x64x128_0_0_0 : ∀ a, (![0, 0, 0] : Fin 3 → Nat) a + S256x64x128.size a ≤ S256x64x128.size a
  h_S256x64x128 : 0 < S256x64x128.numel
  slices_S256x64x64_o0_1_0_S256x1x1 : S256x64x64.Slices ![0, 1, 0] S256x1x1
  shapeCasts_S256x1x1_S256x1 : S256x1x1.ShapeCasts S256x1
  inb_S256x2016_S256x1_0_0 : ∀ a, (![0, 0] : Fin 2 → Nat) a + S256x1.size a ≤ S256x2016.size a
  h_S256x1 : 0 < S256x1.numel
  slices_S256x64x64_o0_2_0_S256x1x2 : S256x64x64.Slices ![0, 2, 0] S256x1x2
  shapeCasts_S256x1x2_S256x2 : S256x1x2.ShapeCasts S256x2
  inb_S256x2016_S256x2_0_1 : ∀ a, (![0, 1] : Fin 2 → Nat) a + S256x2.size a ≤ S256x2016.size a
  h_S256x2 : 0 < S256x2.numel
  slices_S256x64x64_o0_3_0_S256x1x3 : S256x64x64.Slices ![0, 3, 0] S256x1x3
  shapeCasts_S256x1x3_S256x3 : S256x1x3.ShapeCasts S256x3
  inb_S256x2016_S256x3_0_3 : ∀ a, (![0, 3] : Fin 2 → Nat) a + S256x3.size a ≤ S256x2016.size a
  h_S256x3 : 0 < S256x3.numel
  slices_S256x64x64_o0_4_0_S256x1x4 : S256x64x64.Slices ![0, 4, 0] S256x1x4
  shapeCasts_S256x1x4_S256x4 : S256x1x4.ShapeCasts S256x4
  inb_S256x2016_S256x4_0_6 : ∀ a, (![0, 6] : Fin 2 → Nat) a + S256x4.size a ≤ S256x2016.size a
  h_S256x4 : 0 < S256x4.numel
  slices_S256x64x64_o0_5_0_S256x1x5 : S256x64x64.Slices ![0, 5, 0] S256x1x5
  shapeCasts_S256x1x5_S256x5 : S256x1x5.ShapeCasts S256x5
  inb_S256x2016_S256x5_0_10 : ∀ a, (![0, 10] : Fin 2 → Nat) a + S256x5.size a ≤ S256x2016.size a
  h_S256x5 : 0 < S256x5.numel
  slices_S256x64x64_o0_6_0_S256x1x6 : S256x64x64.Slices ![0, 6, 0] S256x1x6
  shapeCasts_S256x1x6_S256x6 : S256x1x6.ShapeCasts S256x6
  inb_S256x2016_S256x6_0_15 : ∀ a, (![0, 15] : Fin 2 → Nat) a + S256x6.size a ≤ S256x2016.size a
  h_S256x6 : 0 < S256x6.numel
  slices_S256x64x64_o0_7_0_S256x1x7 : S256x64x64.Slices ![0, 7, 0] S256x1x7
  shapeCasts_S256x1x7_S256x7 : S256x1x7.ShapeCasts S256x7
  inb_S256x2016_S256x7_0_21 : ∀ a, (![0, 21] : Fin 2 → Nat) a + S256x7.size a ≤ S256x2016.size a
  h_S256x7 : 0 < S256x7.numel
  slices_S256x64x64_o0_8_0_S256x1x8 : S256x64x64.Slices ![0, 8, 0] S256x1x8
  shapeCasts_S256x1x8_S256x8 : S256x1x8.ShapeCasts S256x8
  inb_S256x2016_S256x8_0_28 : ∀ a, (![0, 28] : Fin 2 → Nat) a + S256x8.size a ≤ S256x2016.size a
  h_S256x8 : 0 < S256x8.numel
  slices_S256x64x64_o0_9_0_S256x1x9 : S256x64x64.Slices ![0, 9, 0] S256x1x9
  shapeCasts_S256x1x9_S256x9 : S256x1x9.ShapeCasts S256x9
  inb_S256x2016_S256x9_0_36 : ∀ a, (![0, 36] : Fin 2 → Nat) a + S256x9.size a ≤ S256x2016.size a
  h_S256x9 : 0 < S256x9.numel
  slices_S256x64x64_o0_10_0_S256x1x10 : S256x64x64.Slices ![0, 10, 0] S256x1x10
  shapeCasts_S256x1x10_S256x10 : S256x1x10.ShapeCasts S256x10
  inb_S256x2016_S256x10_0_45 : ∀ a, (![0, 45] : Fin 2 → Nat) a + S256x10.size a ≤ S256x2016.size a
  h_S256x10 : 0 < S256x10.numel
  slices_S256x64x64_o0_11_0_S256x1x11 : S256x64x64.Slices ![0, 11, 0] S256x1x11
  shapeCasts_S256x1x11_S256x11 : S256x1x11.ShapeCasts S256x11
  inb_S256x2016_S256x11_0_55 : ∀ a, (![0, 55] : Fin 2 → Nat) a + S256x11.size a ≤ S256x2016.size a
  h_S256x11 : 0 < S256x11.numel
  slices_S256x64x64_o0_12_0_S256x1x12 : S256x64x64.Slices ![0, 12, 0] S256x1x12
  shapeCasts_S256x1x12_S256x12 : S256x1x12.ShapeCasts S256x12
  inb_S256x2016_S256x12_0_66 : ∀ a, (![0, 66] : Fin 2 → Nat) a + S256x12.size a ≤ S256x2016.size a
  h_S256x12 : 0 < S256x12.numel
  slices_S256x64x64_o0_13_0_S256x1x13 : S256x64x64.Slices ![0, 13, 0] S256x1x13
  shapeCasts_S256x1x13_S256x13 : S256x1x13.ShapeCasts S256x13
  inb_S256x2016_S256x13_0_78 : ∀ a, (![0, 78] : Fin 2 → Nat) a + S256x13.size a ≤ S256x2016.size a
  h_S256x13 : 0 < S256x13.numel
  slices_S256x64x64_o0_14_0_S256x1x14 : S256x64x64.Slices ![0, 14, 0] S256x1x14
  shapeCasts_S256x1x14_S256x14 : S256x1x14.ShapeCasts S256x14
  inb_S256x2016_S256x14_0_91 : ∀ a, (![0, 91] : Fin 2 → Nat) a + S256x14.size a ≤ S256x2016.size a
  h_S256x14 : 0 < S256x14.numel
  slices_S256x64x64_o0_15_0_S256x1x15 : S256x64x64.Slices ![0, 15, 0] S256x1x15
  shapeCasts_S256x1x15_S256x15 : S256x1x15.ShapeCasts S256x15
  inb_S256x2016_S256x15_0_105 : ∀ a, (![0, 105] : Fin 2 → Nat) a + S256x15.size a ≤ S256x2016.size a
  h_S256x15 : 0 < S256x15.numel
  slices_S256x64x64_o0_16_0_S256x1x16 : S256x64x64.Slices ![0, 16, 0] S256x1x16
  shapeCasts_S256x1x16_S256x16 : S256x1x16.ShapeCasts S256x16
  inb_S256x2016_S256x16_0_120 : ∀ a, (![0, 120] : Fin 2 → Nat) a + S256x16.size a ≤ S256x2016.size a
  h_S256x16 : 0 < S256x16.numel
  slices_S256x64x64_o0_17_0_S256x1x17 : S256x64x64.Slices ![0, 17, 0] S256x1x17
  shapeCasts_S256x1x17_S256x17 : S256x1x17.ShapeCasts S256x17
  inb_S256x2016_S256x17_0_136 : ∀ a, (![0, 136] : Fin 2 → Nat) a + S256x17.size a ≤ S256x2016.size a
  h_S256x17 : 0 < S256x17.numel
  slices_S256x64x64_o0_18_0_S256x1x18 : S256x64x64.Slices ![0, 18, 0] S256x1x18
  shapeCasts_S256x1x18_S256x18 : S256x1x18.ShapeCasts S256x18
  inb_S256x2016_S256x18_0_153 : ∀ a, (![0, 153] : Fin 2 → Nat) a + S256x18.size a ≤ S256x2016.size a
  h_S256x18 : 0 < S256x18.numel
  slices_S256x64x64_o0_19_0_S256x1x19 : S256x64x64.Slices ![0, 19, 0] S256x1x19
  shapeCasts_S256x1x19_S256x19 : S256x1x19.ShapeCasts S256x19
  inb_S256x2016_S256x19_0_171 : ∀ a, (![0, 171] : Fin 2 → Nat) a + S256x19.size a ≤ S256x2016.size a
  h_S256x19 : 0 < S256x19.numel
  slices_S256x64x64_o0_20_0_S256x1x20 : S256x64x64.Slices ![0, 20, 0] S256x1x20
  shapeCasts_S256x1x20_S256x20 : S256x1x20.ShapeCasts S256x20
  inb_S256x2016_S256x20_0_190 : ∀ a, (![0, 190] : Fin 2 → Nat) a + S256x20.size a ≤ S256x2016.size a
  h_S256x20 : 0 < S256x20.numel
  slices_S256x64x64_o0_21_0_S256x1x21 : S256x64x64.Slices ![0, 21, 0] S256x1x21
  shapeCasts_S256x1x21_S256x21 : S256x1x21.ShapeCasts S256x21
  inb_S256x2016_S256x21_0_210 : ∀ a, (![0, 210] : Fin 2 → Nat) a + S256x21.size a ≤ S256x2016.size a
  h_S256x21 : 0 < S256x21.numel
  slices_S256x64x64_o0_22_0_S256x1x22 : S256x64x64.Slices ![0, 22, 0] S256x1x22
  shapeCasts_S256x1x22_S256x22 : S256x1x22.ShapeCasts S256x22
  inb_S256x2016_S256x22_0_231 : ∀ a, (![0, 231] : Fin 2 → Nat) a + S256x22.size a ≤ S256x2016.size a
  h_S256x22 : 0 < S256x22.numel
  slices_S256x64x64_o0_23_0_S256x1x23 : S256x64x64.Slices ![0, 23, 0] S256x1x23
  shapeCasts_S256x1x23_S256x23 : S256x1x23.ShapeCasts S256x23
  inb_S256x2016_S256x23_0_253 : ∀ a, (![0, 253] : Fin 2 → Nat) a + S256x23.size a ≤ S256x2016.size a
  h_S256x23 : 0 < S256x23.numel
  slices_S256x64x64_o0_24_0_S256x1x24 : S256x64x64.Slices ![0, 24, 0] S256x1x24
  shapeCasts_S256x1x24_S256x24 : S256x1x24.ShapeCasts S256x24
  inb_S256x2016_S256x24_0_276 : ∀ a, (![0, 276] : Fin 2 → Nat) a + S256x24.size a ≤ S256x2016.size a
  h_S256x24 : 0 < S256x24.numel
  slices_S256x64x64_o0_25_0_S256x1x25 : S256x64x64.Slices ![0, 25, 0] S256x1x25
  shapeCasts_S256x1x25_S256x25 : S256x1x25.ShapeCasts S256x25
  inb_S256x2016_S256x25_0_300 : ∀ a, (![0, 300] : Fin 2 → Nat) a + S256x25.size a ≤ S256x2016.size a
  h_S256x25 : 0 < S256x25.numel
  slices_S256x64x64_o0_26_0_S256x1x26 : S256x64x64.Slices ![0, 26, 0] S256x1x26
  shapeCasts_S256x1x26_S256x26 : S256x1x26.ShapeCasts S256x26
  inb_S256x2016_S256x26_0_325 : ∀ a, (![0, 325] : Fin 2 → Nat) a + S256x26.size a ≤ S256x2016.size a
  h_S256x26 : 0 < S256x26.numel
  slices_S256x64x64_o0_27_0_S256x1x27 : S256x64x64.Slices ![0, 27, 0] S256x1x27
  shapeCasts_S256x1x27_S256x27 : S256x1x27.ShapeCasts S256x27
  inb_S256x2016_S256x27_0_351 : ∀ a, (![0, 351] : Fin 2 → Nat) a + S256x27.size a ≤ S256x2016.size a
  h_S256x27 : 0 < S256x27.numel
  slices_S256x64x64_o0_28_0_S256x1x28 : S256x64x64.Slices ![0, 28, 0] S256x1x28
  shapeCasts_S256x1x28_S256x28 : S256x1x28.ShapeCasts S256x28
  inb_S256x2016_S256x28_0_378 : ∀ a, (![0, 378] : Fin 2 → Nat) a + S256x28.size a ≤ S256x2016.size a
  h_S256x28 : 0 < S256x28.numel
  slices_S256x64x64_o0_29_0_S256x1x29 : S256x64x64.Slices ![0, 29, 0] S256x1x29
  shapeCasts_S256x1x29_S256x29 : S256x1x29.ShapeCasts S256x29
  inb_S256x2016_S256x29_0_406 : ∀ a, (![0, 406] : Fin 2 → Nat) a + S256x29.size a ≤ S256x2016.size a
  h_S256x29 : 0 < S256x29.numel
  slices_S256x64x64_o0_30_0_S256x1x30 : S256x64x64.Slices ![0, 30, 0] S256x1x30
  shapeCasts_S256x1x30_S256x30 : S256x1x30.ShapeCasts S256x30
  inb_S256x2016_S256x30_0_435 : ∀ a, (![0, 435] : Fin 2 → Nat) a + S256x30.size a ≤ S256x2016.size a
  h_S256x30 : 0 < S256x30.numel
  slices_S256x64x64_o0_31_0_S256x1x31 : S256x64x64.Slices ![0, 31, 0] S256x1x31
  shapeCasts_S256x1x31_S256x31 : S256x1x31.ShapeCasts S256x31
  inb_S256x2016_S256x31_0_465 : ∀ a, (![0, 465] : Fin 2 → Nat) a + S256x31.size a ≤ S256x2016.size a
  h_S256x31 : 0 < S256x31.numel
  slices_S256x64x64_o0_32_0_S256x1x32 : S256x64x64.Slices ![0, 32, 0] S256x1x32
  shapeCasts_S256x1x32_S256x32 : S256x1x32.ShapeCasts S256x32
  inb_S256x2016_S256x32_0_496 : ∀ a, (![0, 496] : Fin 2 → Nat) a + S256x32.size a ≤ S256x2016.size a
  h_S256x32 : 0 < S256x32.numel
  slices_S256x64x64_o0_33_0_S256x1x33 : S256x64x64.Slices ![0, 33, 0] S256x1x33
  shapeCasts_S256x1x33_S256x33 : S256x1x33.ShapeCasts S256x33
  inb_S256x2016_S256x33_0_528 : ∀ a, (![0, 528] : Fin 2 → Nat) a + S256x33.size a ≤ S256x2016.size a
  h_S256x33 : 0 < S256x33.numel
  slices_S256x64x64_o0_34_0_S256x1x34 : S256x64x64.Slices ![0, 34, 0] S256x1x34
  shapeCasts_S256x1x34_S256x34 : S256x1x34.ShapeCasts S256x34
  inb_S256x2016_S256x34_0_561 : ∀ a, (![0, 561] : Fin 2 → Nat) a + S256x34.size a ≤ S256x2016.size a
  h_S256x34 : 0 < S256x34.numel
  slices_S256x64x64_o0_35_0_S256x1x35 : S256x64x64.Slices ![0, 35, 0] S256x1x35
  shapeCasts_S256x1x35_S256x35 : S256x1x35.ShapeCasts S256x35
  inb_S256x2016_S256x35_0_595 : ∀ a, (![0, 595] : Fin 2 → Nat) a + S256x35.size a ≤ S256x2016.size a
  h_S256x35 : 0 < S256x35.numel
  slices_S256x64x64_o0_36_0_S256x1x36 : S256x64x64.Slices ![0, 36, 0] S256x1x36
  shapeCasts_S256x1x36_S256x36 : S256x1x36.ShapeCasts S256x36
  inb_S256x2016_S256x36_0_630 : ∀ a, (![0, 630] : Fin 2 → Nat) a + S256x36.size a ≤ S256x2016.size a
  h_S256x36 : 0 < S256x36.numel
  slices_S256x64x64_o0_37_0_S256x1x37 : S256x64x64.Slices ![0, 37, 0] S256x1x37
  shapeCasts_S256x1x37_S256x37 : S256x1x37.ShapeCasts S256x37
  inb_S256x2016_S256x37_0_666 : ∀ a, (![0, 666] : Fin 2 → Nat) a + S256x37.size a ≤ S256x2016.size a
  h_S256x37 : 0 < S256x37.numel
  slices_S256x64x64_o0_38_0_S256x1x38 : S256x64x64.Slices ![0, 38, 0] S256x1x38
  shapeCasts_S256x1x38_S256x38 : S256x1x38.ShapeCasts S256x38
  inb_S256x2016_S256x38_0_703 : ∀ a, (![0, 703] : Fin 2 → Nat) a + S256x38.size a ≤ S256x2016.size a
  h_S256x38 : 0 < S256x38.numel
  slices_S256x64x64_o0_39_0_S256x1x39 : S256x64x64.Slices ![0, 39, 0] S256x1x39
  shapeCasts_S256x1x39_S256x39 : S256x1x39.ShapeCasts S256x39
  inb_S256x2016_S256x39_0_741 : ∀ a, (![0, 741] : Fin 2 → Nat) a + S256x39.size a ≤ S256x2016.size a
  h_S256x39 : 0 < S256x39.numel
  slices_S256x64x64_o0_40_0_S256x1x40 : S256x64x64.Slices ![0, 40, 0] S256x1x40
  shapeCasts_S256x1x40_S256x40 : S256x1x40.ShapeCasts S256x40
  inb_S256x2016_S256x40_0_780 : ∀ a, (![0, 780] : Fin 2 → Nat) a + S256x40.size a ≤ S256x2016.size a
  h_S256x40 : 0 < S256x40.numel
  slices_S256x64x64_o0_41_0_S256x1x41 : S256x64x64.Slices ![0, 41, 0] S256x1x41
  shapeCasts_S256x1x41_S256x41 : S256x1x41.ShapeCasts S256x41
  inb_S256x2016_S256x41_0_820 : ∀ a, (![0, 820] : Fin 2 → Nat) a + S256x41.size a ≤ S256x2016.size a
  h_S256x41 : 0 < S256x41.numel
  slices_S256x64x64_o0_42_0_S256x1x42 : S256x64x64.Slices ![0, 42, 0] S256x1x42
  shapeCasts_S256x1x42_S256x42 : S256x1x42.ShapeCasts S256x42
  inb_S256x2016_S256x42_0_861 : ∀ a, (![0, 861] : Fin 2 → Nat) a + S256x42.size a ≤ S256x2016.size a
  h_S256x42 : 0 < S256x42.numel
  slices_S256x64x64_o0_43_0_S256x1x43 : S256x64x64.Slices ![0, 43, 0] S256x1x43
  shapeCasts_S256x1x43_S256x43 : S256x1x43.ShapeCasts S256x43
  inb_S256x2016_S256x43_0_903 : ∀ a, (![0, 903] : Fin 2 → Nat) a + S256x43.size a ≤ S256x2016.size a
  h_S256x43 : 0 < S256x43.numel
  slices_S256x64x64_o0_44_0_S256x1x44 : S256x64x64.Slices ![0, 44, 0] S256x1x44
  shapeCasts_S256x1x44_S256x44 : S256x1x44.ShapeCasts S256x44
  inb_S256x2016_S256x44_0_946 : ∀ a, (![0, 946] : Fin 2 → Nat) a + S256x44.size a ≤ S256x2016.size a
  h_S256x44 : 0 < S256x44.numel
  slices_S256x64x64_o0_45_0_S256x1x45 : S256x64x64.Slices ![0, 45, 0] S256x1x45
  shapeCasts_S256x1x45_S256x45 : S256x1x45.ShapeCasts S256x45
  inb_S256x2016_S256x45_0_990 : ∀ a, (![0, 990] : Fin 2 → Nat) a + S256x45.size a ≤ S256x2016.size a
  h_S256x45 : 0 < S256x45.numel
  slices_S256x64x64_o0_46_0_S256x1x46 : S256x64x64.Slices ![0, 46, 0] S256x1x46
  shapeCasts_S256x1x46_S256x46 : S256x1x46.ShapeCasts S256x46
  inb_S256x2016_S256x46_0_1035 : ∀ a, (![0, 1035] : Fin 2 → Nat) a + S256x46.size a ≤ S256x2016.size a
  h_S256x46 : 0 < S256x46.numel
  slices_S256x64x64_o0_47_0_S256x1x47 : S256x64x64.Slices ![0, 47, 0] S256x1x47
  shapeCasts_S256x1x47_S256x47 : S256x1x47.ShapeCasts S256x47
  inb_S256x2016_S256x47_0_1081 : ∀ a, (![0, 1081] : Fin 2 → Nat) a + S256x47.size a ≤ S256x2016.size a
  h_S256x47 : 0 < S256x47.numel
  slices_S256x64x64_o0_48_0_S256x1x48 : S256x64x64.Slices ![0, 48, 0] S256x1x48
  shapeCasts_S256x1x48_S256x48 : S256x1x48.ShapeCasts S256x48
  inb_S256x2016_S256x48_0_1128 : ∀ a, (![0, 1128] : Fin 2 → Nat) a + S256x48.size a ≤ S256x2016.size a
  h_S256x48 : 0 < S256x48.numel
  slices_S256x64x64_o0_49_0_S256x1x49 : S256x64x64.Slices ![0, 49, 0] S256x1x49
  shapeCasts_S256x1x49_S256x49 : S256x1x49.ShapeCasts S256x49
  inb_S256x2016_S256x49_0_1176 : ∀ a, (![0, 1176] : Fin 2 → Nat) a + S256x49.size a ≤ S256x2016.size a
  h_S256x49 : 0 < S256x49.numel
  slices_S256x64x64_o0_50_0_S256x1x50 : S256x64x64.Slices ![0, 50, 0] S256x1x50
  shapeCasts_S256x1x50_S256x50 : S256x1x50.ShapeCasts S256x50
  inb_S256x2016_S256x50_0_1225 : ∀ a, (![0, 1225] : Fin 2 → Nat) a + S256x50.size a ≤ S256x2016.size a
  h_S256x50 : 0 < S256x50.numel
  slices_S256x64x64_o0_51_0_S256x1x51 : S256x64x64.Slices ![0, 51, 0] S256x1x51
  shapeCasts_S256x1x51_S256x51 : S256x1x51.ShapeCasts S256x51
  inb_S256x2016_S256x51_0_1275 : ∀ a, (![0, 1275] : Fin 2 → Nat) a + S256x51.size a ≤ S256x2016.size a
  h_S256x51 : 0 < S256x51.numel
  slices_S256x64x64_o0_52_0_S256x1x52 : S256x64x64.Slices ![0, 52, 0] S256x1x52
  shapeCasts_S256x1x52_S256x52 : S256x1x52.ShapeCasts S256x52
  inb_S256x2016_S256x52_0_1326 : ∀ a, (![0, 1326] : Fin 2 → Nat) a + S256x52.size a ≤ S256x2016.size a
  h_S256x52 : 0 < S256x52.numel
  slices_S256x64x64_o0_53_0_S256x1x53 : S256x64x64.Slices ![0, 53, 0] S256x1x53
  shapeCasts_S256x1x53_S256x53 : S256x1x53.ShapeCasts S256x53
  inb_S256x2016_S256x53_0_1378 : ∀ a, (![0, 1378] : Fin 2 → Nat) a + S256x53.size a ≤ S256x2016.size a
  h_S256x53 : 0 < S256x53.numel
  slices_S256x64x64_o0_54_0_S256x1x54 : S256x64x64.Slices ![0, 54, 0] S256x1x54
  shapeCasts_S256x1x54_S256x54 : S256x1x54.ShapeCasts S256x54
  inb_S256x2016_S256x54_0_1431 : ∀ a, (![0, 1431] : Fin 2 → Nat) a + S256x54.size a ≤ S256x2016.size a
  h_S256x54 : 0 < S256x54.numel
  slices_S256x64x64_o0_55_0_S256x1x55 : S256x64x64.Slices ![0, 55, 0] S256x1x55
  shapeCasts_S256x1x55_S256x55 : S256x1x55.ShapeCasts S256x55
  inb_S256x2016_S256x55_0_1485 : ∀ a, (![0, 1485] : Fin 2 → Nat) a + S256x55.size a ≤ S256x2016.size a
  h_S256x55 : 0 < S256x55.numel
  slices_S256x64x64_o0_56_0_S256x1x56 : S256x64x64.Slices ![0, 56, 0] S256x1x56
  shapeCasts_S256x1x56_S256x56 : S256x1x56.ShapeCasts S256x56
  inb_S256x2016_S256x56_0_1540 : ∀ a, (![0, 1540] : Fin 2 → Nat) a + S256x56.size a ≤ S256x2016.size a
  h_S256x56 : 0 < S256x56.numel
  slices_S256x64x64_o0_57_0_S256x1x57 : S256x64x64.Slices ![0, 57, 0] S256x1x57
  shapeCasts_S256x1x57_S256x57 : S256x1x57.ShapeCasts S256x57
  inb_S256x2016_S256x57_0_1596 : ∀ a, (![0, 1596] : Fin 2 → Nat) a + S256x57.size a ≤ S256x2016.size a
  h_S256x57 : 0 < S256x57.numel
  slices_S256x64x64_o0_58_0_S256x1x58 : S256x64x64.Slices ![0, 58, 0] S256x1x58
  shapeCasts_S256x1x58_S256x58 : S256x1x58.ShapeCasts S256x58
  inb_S256x2016_S256x58_0_1653 : ∀ a, (![0, 1653] : Fin 2 → Nat) a + S256x58.size a ≤ S256x2016.size a
  h_S256x58 : 0 < S256x58.numel
  slices_S256x64x64_o0_59_0_S256x1x59 : S256x64x64.Slices ![0, 59, 0] S256x1x59
  shapeCasts_S256x1x59_S256x59 : S256x1x59.ShapeCasts S256x59
  inb_S256x2016_S256x59_0_1711 : ∀ a, (![0, 1711] : Fin 2 → Nat) a + S256x59.size a ≤ S256x2016.size a
  h_S256x59 : 0 < S256x59.numel
  slices_S256x64x64_o0_60_0_S256x1x60 : S256x64x64.Slices ![0, 60, 0] S256x1x60
  shapeCasts_S256x1x60_S256x60 : S256x1x60.ShapeCasts S256x60
  inb_S256x2016_S256x60_0_1770 : ∀ a, (![0, 1770] : Fin 2 → Nat) a + S256x60.size a ≤ S256x2016.size a
  h_S256x60 : 0 < S256x60.numel
  slices_S256x64x64_o0_61_0_S256x1x61 : S256x64x64.Slices ![0, 61, 0] S256x1x61
  shapeCasts_S256x1x61_S256x61 : S256x1x61.ShapeCasts S256x61
  inb_S256x2016_S256x61_0_1830 : ∀ a, (![0, 1830] : Fin 2 → Nat) a + S256x61.size a ≤ S256x2016.size a
  h_S256x61 : 0 < S256x61.numel
  slices_S256x64x64_o0_62_0_S256x1x62 : S256x64x64.Slices ![0, 62, 0] S256x1x62
  shapeCasts_S256x1x62_S256x62 : S256x1x62.ShapeCasts S256x62
  inb_S256x2016_S256x62_0_1891 : ∀ a, (![0, 1891] : Fin 2 → Nat) a + S256x62.size a ≤ S256x2016.size a
  h_S256x62 : 0 < S256x62.numel
  slices_S256x64x64_o0_63_0_S256x1x63 : S256x64x64.Slices ![0, 63, 0] S256x1x63
  shapeCasts_S256x1x63_S256x63 : S256x1x63.ShapeCasts S256x63
  inb_S256x2016_S256x63_0_1953 : ∀ a, (![0, 1953] : Fin 2 → Nat) a + S256x63.size a ≤ S256x2016.size a
  h_S256x63 : 0 < S256x63.numel
  dot_S256x64x128_S256x64x128_S256x64x64_2_2_1_1_0_0_wf : DotDims.WF S256x64x128 S256x64x128 S256x64x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64x128.size a ≤ S8192x64x128.size a
  hwx0_0 : ∀ i : grid0.Coords, EltTy.bits .f32 = 32 ∨ (Rect.block (s := S8192x64x128) S256x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2016.size a ≤ S8192x2016.size a
  hwx0_1 : ∀ i : grid0.Coords, EltTy.bits .f32 = 32 ∨ (Rect.block (s := S8192x2016) S256x2016.size (cc0_transform_1 i) (hinb0_1 i)).WholeWords (EltTy.packing .f32)

variable [Facts₀]

def dot_S256x64x128_S256x64x128_S256x64x64_2_2_1_1_0_0 : DotDims S256x64x128 S256x64x128 S256x64x64 where
  lhsContracting := [2]
  rhsContracting := [2]
  lhsNonContracting := [1]
  rhsNonContracting := [1]
  lhsBatch := [0]
  rhsBatch := [0]
  wf := dot_S256x64x128_S256x64x128_S256x64x64_2_2_1_1_0_0_wf

abbrev win0_0 : Pipeline.Window sig grid0 :=
  Pipeline.Window.ofSpec (Memref.whole main_arg0) S256x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x2016.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x64x128 : Shape := ⟨3, ![8192, 64, 128]⟩
abbrev S8192x64x64 : Shape := ⟨3, ![8192, 64, 64]⟩
abbrev S_ : Shape := ⟨0, ![]⟩
abbrev S64x64 : Shape := ⟨2, ![64, 64]⟩
abbrev S4096 : Shape := ⟨1, ![4096]⟩
abbrev S2016 : Shape := ⟨1, ![2016]⟩
abbrev S4096x1 : Shape := ⟨2, ![4096, 1]⟩
abbrev S2016x1 : Shape := ⟨2, ![2016, 1]⟩
abbrev S2016x2 : Shape := ⟨2, ![2016, 2]⟩
abbrev S8192x2016 : Shape := ⟨2, ![8192, 2016]⟩

abbrev nBuf : Space → Nat
  | .hbm => 137
  | .vmem => 0
  | .smem => 0
  | _ => 0

abbrev hbmTy0_0 (i : Nat) : BufTy := match i % 128 with
  | 0 => ⟨S8192x64x128, .f32⟩
  | 1 => ⟨S8192x64x64, .f32⟩
  | 2 => ⟨S_, .f32⟩
  | 3 => ⟨S64x64, .f32⟩
  | 4 => ⟨S64x64, .i32⟩
  | 5 => ⟨S_, .i32⟩
  | 6 => ⟨S64x64, .i32⟩
  | 7 => ⟨S64x64, .i32⟩
  | 8 => ⟨S64x64, .i32⟩
  | 9 => ⟨S64x64, .i1⟩
  | 10 => ⟨S_, .f32⟩
  | 11 => ⟨S64x64, .f32⟩
  | 12 => ⟨S64x64, .f32⟩
  | 13 => ⟨S_, .f32⟩
  | 14 => ⟨S64x64, .f32⟩
  | 15 => ⟨S64x64, .i1⟩
  | 16 => ⟨S4096, .i1⟩
  | 17 => ⟨S4096, .i32⟩
  | 18 => ⟨S_, .i32⟩
  | 19 => ⟨S_, .i32⟩
  | 20 => ⟨S4096, .i32⟩
  | 21 => ⟨S_, .i32⟩
  | 22 => ⟨S2016, .i32⟩
  | 23 => ⟨S_, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i1⟩
  | 30 => ⟨S_, .i32⟩
  | 31 => ⟨S4096, .i32⟩
  | 32 => ⟨S4096, .i32⟩
  | 33 => ⟨S4096, .i32⟩
  | 34 => ⟨S4096x1, .i32⟩
  | 35 => ⟨S_, .i32⟩
  | 36 => ⟨S4096, .i32⟩
  | 37 => ⟨S2016, .i32⟩
  | 38 => ⟨S_, .i32⟩
  | 39 => ⟨S_, .i32⟩
  | 40 => ⟨S2016, .i32⟩
  | 41 => ⟨S_, .i32⟩
  | 42 => ⟨S2016, .i32⟩
  | 43 => ⟨S2016, .i32⟩
  | 44 => ⟨S2016, .i32⟩
  | 45 => ⟨S_, .i32⟩
  | 46 => ⟨S2016, .i32⟩
  | 47 => ⟨S2016, .i1⟩
  | 48 => ⟨S2016, .i32⟩
  | 49 => ⟨S2016, .i32⟩
  | 50 => ⟨S_, .i32⟩
  | 51 => ⟨S2016, .i32⟩
  | 52 => ⟨S2016, .i1⟩
  | 53 => ⟨S2016, .i1⟩
  | 54 => ⟨S_, .i32⟩
  | 55 => ⟨S2016, .i32⟩
  | 56 => ⟨S2016, .i32⟩
  | 57 => ⟨S2016, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S2016, .i32⟩
  | 65 => ⟨S2016, .i32⟩
  | 66 => ⟨S_, .i32⟩
  | 67 => ⟨S2016, .i32⟩
  | 68 => ⟨S2016, .i1⟩
  | 69 => ⟨S_, .i32⟩
  | 70 => ⟨S2016, .i32⟩
  | 71 => ⟨S2016, .i1⟩
  | 72 => ⟨S_, .i32⟩
  | 73 => ⟨S_, .i1⟩
  | 74 => ⟨S2016, .i1⟩
  | 75 => ⟨S2016, .i1⟩
  | 76 => ⟨S2016, .i1⟩
  | 77 => ⟨S2016, .i32⟩
  | 78 => ⟨S2016, .i32⟩
  | 79 => ⟨S2016, .i32⟩
  | 80 => ⟨S_, .i32⟩
  | 81 => ⟨S2016, .i32⟩
  | 82 => ⟨S2016, .i32⟩
  | 83 => ⟨S2016, .i32⟩
  | 84 => ⟨S_, .i32⟩
  | 85 => ⟨S2016, .i32⟩
  | 86 => ⟨S2016, .i1⟩
  | 87 => ⟨S2016, .i32⟩
  | 88 => ⟨S2016, .i32⟩
  | 89 => ⟨S_, .i32⟩
  | 90 => ⟨S2016, .i32⟩
  | 91 => ⟨S2016, .i1⟩
  | 92 => ⟨S2016, .i1⟩
  | 93 => ⟨S_, .i32⟩
  | 94 => ⟨S2016, .i32⟩
  | 95 => ⟨S2016, .i32⟩
  | 96 => ⟨S2016, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S2016, .i32⟩
  | 104 => ⟨S2016, .i32⟩
  | 105 => ⟨S_, .i32⟩
  | 106 => ⟨S2016, .i32⟩
  | 107 => ⟨S2016, .i1⟩
  | 108 => ⟨S_, .i32⟩
  | 109 => ⟨S2016, .i32⟩
  | 110 => ⟨S2016, .i1⟩
  | 111 => ⟨S_, .i32⟩
  | 112 => ⟨S_, .i1⟩
  | 113 => ⟨S2016, .i1⟩
  | 114 => ⟨S2016, .i1⟩
  | 115 => ⟨S2016, .i1⟩
  | 116 => ⟨S2016, .i32⟩
  | 117 => ⟨S2016, .i32⟩
  | 118 => ⟨S2016, .i32⟩
  | 119 => ⟨S_, .i32⟩
  | 120 => ⟨S2016, .i32⟩
  | 121 => ⟨S2016, .i1⟩
  | 122 => ⟨S_, .i32⟩
  | 123 => ⟨S2016, .i32⟩
  | 124 => ⟨S2016, .i32⟩
  | 125 => ⟨S2016, .i32⟩
  | 126 => ⟨S_, .i32⟩
  | 127 => ⟨S2016, .i32⟩
  | _ => ⟨S8192x64x128, .f32⟩

abbrev hbmTy0_1 (i : Nat) : BufTy := match i % 128 with
  | 0 => ⟨S2016, .i1⟩
  | 1 => ⟨S_, .i32⟩
  | 2 => ⟨S2016, .i32⟩
  | 3 => ⟨S2016, .i32⟩
  | 4 => ⟨S2016, .i32⟩
  | 5 => ⟨S2016x1, .i32⟩
  | 6 => ⟨S2016x1, .i32⟩
  | 7 => ⟨S2016x2, .i32⟩
  | 8 => ⟨S8192x2016, .f32⟩
  | _ => ⟨S8192x64x128, .f32⟩

abbrev hbmTy (i : Nat) : BufTy := match i / 128 with
  | 0 => hbmTy0_0 i
  | 1 => hbmTy0_1 i
  | _ => ⟨S8192x64x128, .f32⟩

abbrev bufTy : (tb : Table) → Fin (tcTables nBuf tb) → BufTy
  | .hbm, ⟨i, _⟩ => hbmTy i
  | _, _ => ⟨S8192x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_v1 : Ref sig .tc := ⟨.hbm, 17, rfl⟩
abbrev main_call1_call0_c : Ref sig .tc := ⟨.hbm, 18, rfl⟩
abbrev main_call1_call0_v0 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_v7 : Ref sig .tc := ⟨.hbm, 26, rfl⟩
abbrev main_c_2 : Ref sig .tc := ⟨.hbm, 27, rfl⟩
abbrev main_v8 : Ref sig .tc := ⟨.hbm, 28, rfl⟩
abbrev main_v9 : Ref sig .tc := ⟨.hbm, 29, rfl⟩
abbrev main_c_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_v15 : Ref sig .tc := ⟨.hbm, 37, rfl⟩
abbrev main_call3_call0_c : Ref sig .tc := ⟨.hbm, 38, rfl⟩
abbrev main_call3_call0_v0 : Ref sig .tc := ⟨.hbm, 39, rfl⟩
abbrev main_v16 : Ref sig .tc := ⟨.hbm, 40, rfl⟩
abbrev main_c_5 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_call4_v5 : Ref sig .tc := ⟨.hbm, 47, rfl⟩
abbrev main_call4_v6 : Ref sig .tc := ⟨.hbm, 48, rfl⟩
abbrev main_call4_v7 : Ref sig .tc := ⟨.hbm, 49, rfl⟩
abbrev main_call4_c : Ref sig .tc := ⟨.hbm, 50, rfl⟩
abbrev main_call4_v8 : Ref sig .tc := ⟨.hbm, 51, rfl⟩
abbrev main_call4_v9 : Ref sig .tc := ⟨.hbm, 52, rfl⟩
abbrev main_call4_v10 : Ref sig .tc := ⟨.hbm, 53, rfl⟩
abbrev main_call4_c_0 : Ref sig .tc := ⟨.hbm, 54, rfl⟩
abbrev main_call4_v11 : Ref sig .tc := ⟨.hbm, 55, rfl⟩
abbrev main_call4_v12 : Ref sig .tc := ⟨.hbm, 56, rfl⟩
abbrev main_v17 : Ref sig .tc := ⟨.hbm, 57, rfl⟩
abbrev main_c_6 : Ref sig .tc := ⟨.hbm, 58, rfl⟩
abbrev main_call5_v0 : Ref sig .tc := ⟨.hbm, 59, rfl⟩
abbrev main_call5_c : Ref sig .tc := ⟨.hbm, 60, rfl⟩
abbrev main_call5_v1 : Ref sig .tc := ⟨.hbm, 61, rfl⟩
abbrev main_call5_c_0 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_c_1 : Ref sig .tc := ⟨.hbm, 66, rfl⟩
abbrev main_call5_v5 : Ref sig .tc := ⟨.hbm, 67, rfl⟩
abbrev main_call5_v6 : Ref sig .tc := ⟨.hbm, 68, rfl⟩
abbrev main_call5_c_2 : Ref sig .tc := ⟨.hbm, 69, rfl⟩
abbrev main_call5_v7 : Ref sig .tc := ⟨.hbm, 70, rfl⟩
abbrev main_call5_v8 : Ref sig .tc := ⟨.hbm, 71, rfl⟩
abbrev main_call5_c_3 : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_v12 : Ref sig .tc := ⟨.hbm, 76, rfl⟩
abbrev main_call5_v13 : Ref sig .tc := ⟨.hbm, 77, rfl⟩
abbrev main_call5_v14 : Ref sig .tc := ⟨.hbm, 78, rfl⟩
abbrev main_v18 : Ref sig .tc := ⟨.hbm, 79, rfl⟩
abbrev main_c_7 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_v7 : Ref sig .tc := ⟨.hbm, 88, rfl⟩
abbrev main_call6_c : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_call6_c_0 : Ref sig .tc := ⟨.hbm, 93, rfl⟩
abbrev main_call6_v11 : Ref sig .tc := ⟨.hbm, 94, rfl⟩
abbrev main_call6_v12 : Ref sig .tc := ⟨.hbm, 95, rfl⟩
abbrev main_v19 : Ref sig .tc := ⟨.hbm, 96, rfl⟩
abbrev main_c_8 : Ref sig .tc := ⟨.hbm, 97, rfl⟩
abbrev main_call7_v0 : Ref sig .tc := ⟨.hbm, 98, rfl⟩
abbrev main_call7_c : Ref sig .tc := ⟨.hbm, 99, rfl⟩
abbrev main_call7_v1 : Ref sig .tc := ⟨.hbm, 100, rfl⟩
abbrev main_call7_c_0 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_call7_c_1 : Ref sig .tc := ⟨.hbm, 105, rfl⟩
abbrev main_call7_v5 : Ref sig .tc := ⟨.hbm, 106, rfl⟩
abbrev main_call7_v6 : Ref sig .tc := ⟨.hbm, 107, rfl⟩
abbrev main_call7_c_2 : Ref sig .tc := ⟨.hbm, 108, rfl⟩
abbrev main_call7_v7 : Ref sig .tc := ⟨.hbm, 109, rfl⟩
abbrev main_call7_v8 : Ref sig .tc := ⟨.hbm, 110, rfl⟩
abbrev main_call7_c_3 : Ref sig .tc := ⟨.hbm, 111, rfl⟩
abbrev main_call7_v9 : Ref sig .tc := ⟨.hbm, 112, rfl⟩
abbrev main_call7_v10 : Ref sig .tc := ⟨.hbm, 113, rfl⟩
abbrev main_call7_v11 : Ref sig .tc := ⟨.hbm, 114, rfl⟩
abbrev main_call7_v12 : Ref sig .tc := ⟨.hbm, 115, rfl⟩
abbrev main_call7_v13 : Ref sig .tc := ⟨.hbm, 116, rfl⟩
abbrev main_call7_v14 : Ref sig .tc := ⟨.hbm, 117, rfl⟩
abbrev main_v20 : Ref sig .tc := ⟨.hbm, 118, rfl⟩
abbrev main_c_9 : Ref sig .tc := ⟨.hbm, 119, rfl⟩
abbrev main_v21 : Ref sig .tc := ⟨.hbm, 120, rfl⟩
abbrev main_v22 : Ref sig .tc := ⟨.hbm, 121, rfl⟩
abbrev main_c_10 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_c_11 : Ref sig .tc := ⟨.hbm, 126, rfl⟩
abbrev main_v26 : Ref sig .tc := ⟨.hbm, 127, rfl⟩
abbrev main_v27 : Ref sig .tc := ⟨.hbm, 128, rfl⟩
abbrev main_c_12 : Ref sig .tc := ⟨.hbm, 129, rfl⟩
abbrev main_v28 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  shapeCasts_S64x64_S4096 : S64x64.ShapeCasts S4096
  natLt_1_32 : 1 < 32
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S_S2016 : S_.BroadcastsInDim S2016 (![] : Fin 0 → Fin S2016.rank)
  bcast_S_S4096 : S_.BroadcastsInDim S4096 (![] : Fin 0 → Fin S4096.rank)
  bcast_S4096_S4096x1_0 : S4096.BroadcastsInDim S4096x1 (![0] : Fin 1 → Fin S4096x1.rank)
  reduceWindows_S2016_S2016_w2016s1p2015_0 : S2016.ReduceWindows (![2016] : Fin 1 → Nat) ![1] ![2015] ![0] S2016
  bcast_S2016_S2016x1_0 : S2016.BroadcastsInDim S2016x1 (![0] : Fin 1 → Fin S2016x1.rank)
  concatenates_S2016x1_S2016x1_S2016x2_d1 : Shape.Concatenates [S2016x1, S2016x1] S2016x2 1
  dot_S8192x64x128_S8192x64x128_S8192x64x64_2_2_1_1_0_0_wf : DotDims.WF S8192x64x128 S8192x64x128 S8192x64x64 [2] [2] [1] [1] [0] [0]
  scatter_S2016_S4096x1_S4096_n_0_0_1_wf : ScatterDims.WF S2016 S4096x1 S4096 [] [0] [0] 1
  gather_S8192x64x64_S2016x2_S8192x2016_0_12_n_n_12_1_819211_wf : GatherDims.WF S8192x64x64 S2016x2 S8192x2016 [0] [1, 2] [] [1, 2] [] 1 ![8192, 1, 1]

variable [Facts₀]

def dot_S8192x64x128_S8192x64x128_S8192x64x64_2_2_1_1_0_0 : DotDims S8192x64x128 S8192x64x128 S8192x64x64 where
  lhsContracting := [2]
  rhsContracting := [2]
  lhsNonContracting := [1]
  rhsNonContracting := [1]
  lhsBatch := [0]
  rhsBatch := [0]
  wf := dot_S8192x64x128_S8192x64x128_S8192x64x64_2_2_1_1_0_0_wf
def scatter_S2016_S4096x1_S4096_n_0_0_1 : ScatterDims S2016 S4096x1 S4096 where
  updateWindowDims := []
  insertedWindowDims := [0]
  scatterDimsToOperandDims := [0]
  indexVectorDim := 1
  wf := scatter_S2016_S4096x1_S4096_n_0_0_1_wf
def gather_S8192x64x64_S2016x2_S8192x2016_0_12_n_n_12_1_819211 : GatherDims S8192x64x64 S2016x2 S8192x2016 where
  offsetDims := [0]
  collapsedSliceDims := [1, 2]
  operandBatchingDims := []
  startIndicesBatchingDims := []
  startIndexMap := [1, 2]
  indexVectorDim := 1
  sliceSizes := ![8192, 1, 1]
  wf := gather_S8192x64x64_S2016x2_S8192x2016_0_12_n_n_12_1_819211_wf

class Facts : Prop extends Facts₀ where

variable [Facts]
-- ==== Proof.KernCoverK.lean ====
/-
  The 63 stored pieces cover the output block, by arithmetic. The pieces are listed last store first: the head
  is the rectangle of columns tri 63 .. 2015, and each tail begins one row earlier; a list whose head is the
  rectangle of all 256 rows and columns off .. off + n - 1 and whose tail covers the columns below off covers
  the columns below off + n. Sixty-three such steps from the empty list cover the columns below 2016.
-/
import proofs.«176202_j4166118277508_2_alg».proof.Proof.Gen.Kernel.Frame.RunA

set_option maxRecDepth 16384

noncomputable section

namespace Cert.Tril.KernK

open Cert.Kernel Cert.Kernel.Gen Idealize.ShloMosaic Idealize.ShloMosaic.TcCoe Idealize.SL.Sem

variable {F : FTy → Type} [FloatOps F]

/-- The pieces of the list cover every index of the block whose column is below hi. -/
def ColCover (L : List (View.Piece (Elt F) S256x2016 .f32)) (hi : ℕ) : Prop :=
  ∀ y : S256x2016.Idx, (y 1).val < hi → ∃ p ∈ L, y ∈ p.1.set

/-- No column is below zero. -/
theorem colCover_nil : ColCover (F := F) [] 0 := fun _ h => absurd h (Nat.not_lt_zero _)

/-- One more full-height rectangle of n columns from off, on a list covering the columns below off, covers the
    columns below off + n. -/
theorem colCover_cons (off n hi : ℕ)
    (inb : ∀ a, (![0, off] : Fin 2 → ℕ) a + (![256, n] : Fin 2 → ℕ) a ≤ S256x2016.size a)
    (w : (Rect.unit (s := S256x2016) ![0, off] ![256, n] inb).shape.Idx → Elt F .f32)
    (L : List (View.Piece (Elt F) S256x2016 .f32)) (hhi : hi = off + n) (h : ColCover L off) :
    ColCover ((⟨Rect.unit (s := S256x2016) ![0, off] ![256, n] inb, w⟩ : View.Piece (Elt F) S256x2016 .f32) :: L) hi := by
  intro y hy
  by_cases hlo : (y 1).val < off
  · obtain ⟨p, hp, hm⟩ := h y hlo
    exact ⟨p, List.mem_cons_of_mem _ hp, hm⟩
  · refine ⟨_, List.mem_cons_self, ?_⟩
    rw [Rect.mem_set_unit]
    intro a
    have h0 : (y 0).val < 256 := (y 0).isLt
    match a with
    | ⟨0, _⟩ => show 0 ≤ (y 0).val ∧ (y 0).val < 0 + 256; omega
    | ⟨1, _⟩ => show off ≤ (y 1).val ∧ (y 1).val < off + n; omega

/-- THE COVER: every index of the 256 x 2016 output block lies in one of the 63 stored pieces. -/
theorem cover (c : Dev nD) (i : grid0.Coords) (arg1 : Memref sig .tc .vmem S256x64x128 .f32) (harg1 : arg1.IsWhole)
    (arg2 : Memref sig .tc .vmem S256x2016 .f32) (harg2 : arg2.IsWhole) (x0 : Vec F S256x64x128 .f32)
    (y : S256x2016.Idx) : ∃ pc ∈ (kernelRun0_A c i arg1 harg1 arg2 harg2 x0).1, y ∈ pc.1.set := by
  have h : ColCover (kernelRun0_A c i arg1 harg1 arg2 harg2 x0).1 2016 := by
    unfold kernelRun0_A
    dsimp only
    repeat' (first | exact colCover_nil | refine colCover_cons _ _ _ _ _ _ (by rfl) ?_)
  exact h y (y 1).isLt

end Cert.Tril.KernK

end
-- ==== Proof.KernCover.lean ====
/-
  The 63 stored pieces cover the output block, by arithmetic. The pieces are listed last store first: the head
  is the rectangle of columns tri 63 .. 2015, and each tail begins one row earlier; a list whose head is the
  rectangle of all 256 rows and columns off .. off + n - 1 and whose tail covers the columns below off covers
  the columns below off + n. Sixty-three such steps from the empty list cover the columns below 2016.
-/
import proofs.«176202_j4166118277508_2_alg».proof.Proof.Gen.KernelIdeal.Frame.RunA

set_option maxRecDepth 16384

noncomputable section

namespace Cert.Tril.Kern

open Cert.KernelIdeal Cert.KernelIdeal.Gen Idealize.ShloMosaic Idealize.ShloMosaic.TcCoe Idealize.SL.Sem

variable {F : FTy → Type} [FloatOps F]

/-- The pieces of the list cover every index of the block whose column is below hi. -/
def ColCover (L : List (View.Piece (Elt F) S256x2016 .f32)) (hi : ℕ) : Prop :=
  ∀ y : S256x2016.Idx, (y 1).val < hi → ∃ p ∈ L, y ∈ p.1.set

/-- No column is below zero. -/
theorem colCover_nil : ColCover (F := F) [] 0 := fun _ h => absurd h (Nat.not_lt_zero _)

/-- One more full-height rectangle of n columns from off, on a list covering the columns below off, covers the
    columns below off + n. -/
theorem colCover_cons (off n hi : ℕ)
    (inb : ∀ a, (![0, off] : Fin 2 → ℕ) a + (![256, n] : Fin 2 → ℕ) a ≤ S256x2016.size a)
    (w : (Rect.unit (s := S256x2016) ![0, off] ![256, n] inb).shape.Idx → Elt F .f32)
    (L : List (View.Piece (Elt F) S256x2016 .f32)) (hhi : hi = off + n) (h : ColCover L off) :
    ColCover ((⟨Rect.unit (s := S256x2016) ![0, off] ![256, n] inb, w⟩ : View.Piece (Elt F) S256x2016 .f32) :: L) hi := by
  intro y hy
  by_cases hlo : (y 1).val < off
  · obtain ⟨p, hp, hm⟩ := h y hlo
    exact ⟨p, List.mem_cons_of_mem _ hp, hm⟩
  · refine ⟨_, List.mem_cons_self, ?_⟩
    rw [Rect.mem_set_unit]
    intro a
    have h0 : (y 0).val < 256 := (y 0).isLt
    match a with
    | ⟨0, _⟩ => show 0 ≤ (y 0).val ∧ (y 0).val < 0 + 256; omega
    | ⟨1, _⟩ => show off ≤ (y 1).val ∧ (y 1).val < off + n; omega

/-- THE COVER: every index of the 256 x 2016 output block lies in one of the 63 stored pieces. -/
theorem cover (c : Dev nD) (i : grid0.Coords) (arg1 : Memref sig .tc .vmem S256x64x128 .f32) (harg1 : arg1.IsWhole)
    (arg2 : Memref sig .tc .vmem S256x2016 .f32) (harg2 : arg2.IsWhole) (x0 : Vec F S256x64x128 .f32)
    (y : S256x2016.Idx) : ∃ pc ∈ (kernelRun0_A c i arg1 harg1 arg2 harg2 x0).1, y ∈ pc.1.set := by
  have h : ColCover (kernelRun0_A c i arg1 harg1 arg2 harg2 x0).1 2016 := by
    unfold kernelRun0_A
    dsimp only
    repeat' (first | exact colCover_nil | refine colCover_cons _ _ _ _ _ _ (by rfl) ?_)
  exact h y (y 1).isLt

end Cert.Tril.Kern

end
-- ==== Proof.TrilSpec.lean ====
/-
  The strictly-lower-triangular entries of a 64 x 64 matrix, listed row by row: entry number
  `k = i(i-1)/2 + j` (with `j < i`) is the pair (row `i`, column `j`), 2016 entries in all. `tri i` is the
  offset `i(i-1)/2` of row `i`; `row k` and `col k` recover the pair from the entry number. The function
  both programs compute: for each sample `b` and entry number `k`, the inner product over the 128 features
  of embedding `row k` with embedding `col k` of sample `b`.
-/
import Idealize.ShloMosaic.PureOps.Ideal
import Idealize.ShloMosaic.Lib.ValueIdx

noncomputable section

namespace Cert.Tril

open Idealize.ShloMosaic Idealize.ShloMosaic.ValueIdx

/-- The number of pairs `(i', j)` with `j < i' < i`: where row `i` begins among the entries. -/
def tri (i : ℕ) : ℕ := i * (i - 1) / 2

theorem tri_succ (i : ℕ) : tri (i + 1) = tri i + i := by
  unfold tri
  cases i with
  | zero => rfl
  | succ n =>
    simp only [Nat.add_sub_cancel]
    have h : (n + 1 + 1) * (n + 1) = (n + 1) * n + 2 * (n + 1) := by ring
    rw [h, Nat.add_mul_div_left _ _ (by norm_num : 0 < 2)]

theorem tri_mono {a b : ℕ} (h : a ≤ b) : tri a ≤ tri b := by
  induction h with
  | refl => exact le_rfl
  | step _ ih => exact ih.trans (by rw [tri_succ]; exact Nat.le_add_right _ _)

theorem tri_zero : tri 0 = 0 := rfl
theorem tri_one : tri 1 = 0 := rfl
theorem tri_64 : tri 64 = 2016 := by decide

/-- The row of entry number `k`: the greatest `i ≤ 63` whose row begins at or before `k`. -/
def row (k : ℕ) : ℕ := Nat.findGreatest (fun i => tri i ≤ k) 63

/-- The column of entry number `k`: its distance from the beginning of its row. -/
def col (k : ℕ) : ℕ := k - tri (row k)

/-- A row is determined by the two offsets that enclose the entry number. -/
theorem row_eq {i k : ℕ} (hi : i ≤ 63) (h1 : tri i ≤ k) (h2 : k < tri (i + 1)) : row k = i := by
  unfold row
  rw [Nat.findGreatest_eq_iff]
  refine ⟨hi, fun _ => h1, fun n hn _ hle => ?_⟩
  have := tri_mono (show i + 1 ≤ n from hn)
  omega

theorem row_tri_add {i j : ℕ} (hi : i ≤ 63) (hj : j < i) : row (tri i + j) = i :=
  row_eq hi (Nat.le_add_right _ _) (by rw [tri_succ]; omega)

theorem col_tri_add {i j : ℕ} (hi : i ≤ 63) (hj : j < i) : col (tri i + j) = j := by
  unfold col; rw [row_tri_add hi hj]; omega

/-- Every entry number below 2016 lies in a row between 1 and 63, between that row's offset and the next. -/
theorem row_spec {k : ℕ} (hk : k < 2016) : 1 ≤ row k ∧ row k ≤ 63 ∧ tri (row k) ≤ k ∧ k < tri (row k + 1) := by
  have h63 : row k ≤ 63 := Nat.findGreatest_le 63
  have hle : tri (row k) ≤ k :=
    Nat.findGreatest_spec (P := fun i => tri i ≤ k) (Nat.zero_le 63) (by show tri 0 ≤ k; rw [tri_zero]; exact Nat.zero_le _)
  have h1 : 1 ≤ row k :=
    Nat.le_findGreatest (P := fun i => tri i ≤ k) (by norm_num) (by show tri 1 ≤ k; rw [tri_one]; exact Nat.zero_le _)
  refine ⟨h1, h63, hle, ?_⟩
  by_cases h : row k = 63
  · rw [h]; show k < tri 64; rw [tri_64]; exact hk
  · have hlt : row k + 1 ≤ 63 := by omega
    have := Nat.findGreatest_is_greatest (P := fun i => tri i ≤ k) (n := 63) (k := row k + 1) (Nat.lt_succ_self _) hlt
    exact Nat.lt_of_not_le this

theorem col_lt_row {k : ℕ} (hk : k < 2016) : col k < row k := by
  obtain ⟨_, _, h1, h2⟩ := row_spec hk
  rw [tri_succ] at h2
  unfold col; omega

theorem row_lt {k : ℕ} (hk : k < 2016) : row k < 64 := by
  obtain ⟨_, h, _, _⟩ := row_spec hk; omega

theorem col_lt {k : ℕ} (hk : k < 2016) : col k < 64 := by
  have := col_lt_row hk; have := row_lt hk; omega

/-- An entry number is its row's offset plus its column. -/
theorem tri_row_add_col {k : ℕ} (hk : k < 2016) : tri (row k) + col k = k := by
  obtain ⟨_, _, h1, _⟩ := row_spec hk
  unfold col; omega

/-- The pairwise interactions: at sample `b` and entry number `k`, the inner product over the 128 features of
    embedding `row k` with embedding `col k` of sample `b`. -/
def gram (x : FVec Ideal ⟨3, ![8192, 64, 128]⟩ .f32) : FVec Ideal ⟨2, ![8192, 2016]⟩ .f32 := fun q =>
  ∑ d : Fin 128,
    x (ix3 (n0 := 8192) (n1 := 64) (n2 := 128) ⟨(q 0).val, idx2_lt0 q⟩ ⟨row (q 1).val, row_lt (idx2_lt1 q)⟩ d)
      * x (ix3 (n0 := 8192) (n1 := 64) (n2 := 128) ⟨(q 0).val, idx2_lt0 q⟩ ⟨col (q 1).val, col_lt (idx2_lt1 q)⟩ d)

theorem gram_apply (x : FVec Ideal ⟨3, ![8192, 64, 128]⟩ .f32) (b : Fin 8192) (k : Fin 2016) :
    gram x (ix2 b k) = ∑ d : Fin 128,
      x (ix3 (n0 := 8192) (n1 := 64) (n2 := 128) b ⟨row k.val, row_lt k.isLt⟩ d)
        * x (ix3 (n0 := 8192) (n1 := 64) (n2 := 128) b ⟨col k.val, col_lt k.isLt⟩ d) := rfl

end Cert.Tril

end
-- ==== Proof.KernPieces.lean ====
/-
  The kernel's block function and its 63 stores. On one block of 256 samples the kernel forms, per sample, all
  64 x 64 inner products of the sample's embeddings over their 128 features, and then copies, for each row
  i = 1 .. 63, the first i entries of row i of that matrix to the columns tri i .. tri i + i - 1 of the output
  block. Entry number tri i + j (j < i) of the output is therefore the inner product of embedding i with
  embedding j: the entry numbered k holds the product of embeddings row k and col k. This file states that
  block function (Gblk) and proves that every stored piece is the restriction of it to the piece's rectangle.
-/
import proofs.«176202_j4166118277508_2_alg».proof.Proof.Gen.KernelIdeal.Frame.RunA
import proofs.«176202_j4166118277508_2_alg».proof.Proof.TrilSpec
import Idealize.ShloMosaic.Lib.ValueLayout
import Idealize.ShloMosaic.Lib.Pipeline.Value
import Idealize.ShloMosaic.PureOps.Ideal.Laws

set_option maxRecDepth 16384

noncomputable section

namespace Cert.Tril.Kern

open Cert.KernelIdeal Cert.KernelIdeal.Gen Idealize.ShloMosaic Idealize.ShloMosaic.TcCoe Idealize.SL.Sem
open Idealize.ShloMosaic.ValueIdx

/-- The block function: on a block of 256 samples, entry number k of sample b is the inner product over the
    128 features of embedding row k with embedding col k of that sample. -/
def Gblk (x : FVec Ideal ⟨3, ![256, 64, 128]⟩ .f32) : FVec Ideal ⟨2, ![256, 2016]⟩ .f32 := fun q =>
  ∑ d : Fin 128,
    x (ix3 (n0 := 256) (n1 := 64) (n2 := 128) ⟨(q 0).val, idx2_lt0 q⟩ ⟨row (q 1).val, row_lt (idx2_lt1 q)⟩ d)
      * x (ix3 (n0 := 256) (n1 := 64) (n2 := 128) ⟨(q 0).val, idx2_lt0 q⟩ ⟨col (q 1).val, col_lt (idx2_lt1 q)⟩ d)

/-- The block function at an entry whose sample, row and column are known. -/
theorem Gblk_eq (x : FVec Ideal ⟨3, ![256, 64, 128]⟩ .f32) (q : (⟨2, ![256, 2016]⟩ : Shape).Idx)
    (b : Fin 256) (i j : Fin 64) (hb : (q 0).val = b.val) (hi : row (q 1).val = i.val) (hj : col (q 1).val = j.val) :
    Gblk x q = ∑ d : Fin 128, x (ix3 b i d) * x (ix3 b j d) := by
  have e0 : (⟨(q 0).val, idx2_lt0 q⟩ : Fin 256) = b := Fin.ext hb
  have e1 : (⟨row (q 1).val, row_lt (idx2_lt1 q)⟩ : Fin 64) = i := Fin.ext hi
  have e2 : (⟨col (q 1).val, col_lt (idx2_lt1 q)⟩ : Fin 64) = j := Fin.ext hj
  unfold Gblk
  rw [e0, e1, e2]

/-- The matrix of inner products: the batched product of a block with itself, contracted over the features
    into a zero accumulator, holds at (b, i, j) the inner product of embeddings i and j of sample b. -/
theorem inner_apply (x0 : FVec Ideal S256x64x128 .f32) (b : Fin 256) (i j : Fin 64) :
    k0_pay5 x0 (ix3 b i j) = ∑ d : Fin 128, x0 (ix3 b i d) * x0 (ix3 b j d) := by
  refine (Ideal.matmul_constant_zero_apply dot_S256x64x128_S256x64x128_S256x64x64_2_2_1_1_0_0 none x0 x0
    (ix3 b i j)).trans ?_
  rw [← Equiv.sum_comp (contrEquiv1 dot_S256x64x128_S256x64x128_S256x64x64_2_2_1_1_0_0 128 rfl rfl).symm]
  refine Finset.sum_congr rfl fun d _ => ?_
  have c3 := contrEquiv1_symm_val dot_S256x64x128_S256x64x128_S256x64x64_2_2_1_1_0_0 128 rfl rfl d
  have l3 : dot_S256x64x128_S256x64x128_S256x64x64_2_2_1_1_0_0.lhsIdx (ix3 b i j)
      ((contrEquiv1 _ 128 rfl rfl).symm d) = ix3 b i d := by
    funext ax; apply Fin.ext
    match ax with
    | ⟨0, _⟩ => simp [DotDims.lhsIdx, dot_S256x64x128_S256x64x128_S256x64x64_2_2_1_1_0_0]; rfl
    | ⟨1, _⟩ => simp [DotDims.lhsIdx, dot_S256x64x128_S256x64x128_S256x64x64_2_2_1_1_0_0]; rfl
    | ⟨2, _⟩ => simp [DotDims.lhsIdx, dot_S256x64x128_S256x64x128_S256x64x64_2_2_1_1_0_0]; exact c3
  have r3 : dot_S256x64x128_S256x64x128_S256x64x64_2_2_1_1_0_0.rhsIdx (ix3 b i j)
      ((contrEquiv1 _ 128 rfl rfl).symm d) = ix3 b j d := by
    funext ax; apply Fin.ext
    match ax with
    | ⟨0, _⟩ => simp [DotDims.rhsIdx, dot_S256x64x128_S256x64x128_S256x64x64_2_2_1_1_0_0]; rfl
    | ⟨1, _⟩ => simp [DotDims.rhsIdx, dot_S256x64x128_S256x64x128_S256x64x64_2_2_1_1_0_0]; rfl
    | ⟨2, _⟩ => simp [DotDims.rhsIdx, dot_S256x64x128_S256x64x128_S256x64x64_2_2_1_1_0_0]; exact c3
  rw [l3, r3]

/-- Row i of a stack of 64 x 64 matrices, cut to its first n columns and with the unit row axis dropped,
    holds at (b, j) the stack's entry (b, i, j). -/
theorem row_prefix_apply {α : Type} {n : ℕ} (i : ℕ) (v : (⟨3, ![256, 64, 64]⟩ : Shape).Idx → α)
    (hs : (⟨3, ![256, 64, 64]⟩ : Shape).Slices ![0, i, 0] ⟨3, ![256, 1, n]⟩)
    (hc : (⟨3, ![256, 1, n]⟩ : Shape).ShapeCasts ⟨2, ![256, n]⟩)
    (b : Fin 256) (j : Fin n) (i' j' : Fin 64) (hi : i'.val = i) (hj : j'.val = j.val) :
    shapeCast ⟨2, ![256, n]⟩ (extractStridedSlice ⟨3, ![256, 1, n]⟩ ![0, i, 0] v hs) hc (ix2 b j) = v (ix3 b i' j') := by
  refine (shapeCast_apply _ hc (ix2 b j) (ix3 b (0 : Fin 1) j) ?_).trans ?_
  · rw [Shape.rowMajor_val_three, Shape.rowMajor_val_two]
    show (b.val * 1 + 0) * n + j.val = b.val * n + j.val
    rw [Nat.mul_one, Nat.add_zero]
  · exact extractStridedSlice_apply _ _ hs _ _ (fun ax => by
      match ax with
      | ⟨0, _⟩ => exact (Nat.zero_add _).symm
      | ⟨1, _⟩ => show i'.val = i + 0; omega
      | ⟨2, _⟩ => show j'.val = 0 + j.val; omega)

/-- ONE STORE: the first i entries of row i of the matrix of inner products, placed at columns tri i onward,
    are the block function on that rectangle. -/
theorem piece_apply (x0 : FVec Ideal S256x64x128 .f32) (v : FVec Ideal S256x64x64 .f32) (hv : v = k0_pay5 x0)
    (i off : ℕ) (hi1 : 1 ≤ i) (hi : i ≤ 63) (hoff : off = tri i)
    (hs : S256x64x64.Slices ![0, i, 0] ⟨3, ![256, 1, i]⟩)
    (hc : (⟨3, ![256, 1, i]⟩ : Shape).ShapeCasts ⟨2, ![256, i]⟩)
    (inb : ∀ a, (![0, off] : Fin 2 → ℕ) a + (![256, i] : Fin 2 → ℕ) a ≤ S256x2016.size a)
    (x : (Rect.unit (s := S256x2016) ![0, off] ![256, i] inb).shape.Idx) :
    shapeCast ⟨2, ![256, i]⟩ (extractStridedSlice ⟨3, ![256, 1, i]⟩ ![0, i, 0] v hs) hc x
      = Gblk x0 ((Rect.unit (s := S256x2016) ![0, off] ![256, i] inb).emb x) := by
  subst hoff hv
  obtain ⟨b, j, rfl⟩ : ∃ (b : Fin 256) (j : Fin i), x = ix2 b j := ⟨x 0, x 1, eq_ix2 x⟩
  have hj := j.isLt
  refine (row_prefix_apply i (k0_pay5 (F := Ideal) x0) hs hc b j ⟨i, by omega⟩ ⟨j.val, by omega⟩ rfl rfl).trans ?_
  refine (inner_apply x0 b ⟨i, by omega⟩ ⟨j.val, by omega⟩).trans ?_
  refine (Gblk_eq x0 _ b ⟨i, by omega⟩ ⟨j.val, by omega⟩ ?_ ?_ ?_).symm
  · show 0 + 1 * b.val = b.val; omega
  · show row (tri i + 1 * j.val) = i; rw [Nat.one_mul]; exact row_tri_add hi hj
  · show col (tri i + 1 * j.val) = j.val; rw [Nat.one_mul]; exact col_tri_add hi hj

/-- FROM A BLOCK TO THE ARRAY: when a block of 256 samples is samples 256 T .. 256 T + 255 of an array of 8192,
    the block function at (b, k) is the array's function at (256 T + b, k). -/
theorem Gblk_block (X : FVec Ideal ⟨3, ![8192, 64, 128]⟩ .f32) (x0 : FVec Ideal ⟨3, ![256, 64, 128]⟩ .f32) (T : ℕ)
    (hx : ∀ (b : Fin 256) (i : Fin 64) (d : Fin 128) (B : Fin 8192), B.val = 256 * T + b.val →
      x0 (ix3 b i d) = X (ix3 B i d))
    (j : (⟨2, ![256, 2016]⟩ : Shape).Idx) (q : (⟨2, ![8192, 2016]⟩ : Shape).Idx)
    (h0 : (q 0).val = 256 * T + (j 0).val) (h1 : (q 1).val = (j 1).val) :
    Gblk x0 j = gram X q := by
  have er : (⟨row (j 1).val, row_lt (idx2_lt1 j)⟩ : Fin 64) = ⟨row (q 1).val, row_lt (idx2_lt1 q)⟩ :=
    Fin.ext (show row (j 1).val = row (q 1).val from congrArg row h1.symm)
  have ec : (⟨col (j 1).val, col_lt (idx2_lt1 j)⟩ : Fin 64) = ⟨col (q 1).val, col_lt (idx2_lt1 q)⟩ :=
    Fin.ext (show col (j 1).val = col (q 1).val from congrArg col h1.symm)
  unfold Gblk gram
  refine Finset.sum_congr rfl fun d _ => ?_
  refine congrArg₂ (· * ·) ?_ ?_
  · exact (hx ⟨(j 0).val, idx2_lt0 j⟩ ⟨row (j 1).val, row_lt (idx2_lt1 j)⟩ d ⟨(q 0).val, idx2_lt0 q⟩ h0).trans
      (by rw [er])
  · exact (hx ⟨(j 0).val, idx2_lt0 j⟩ ⟨col (j 1).val, col_lt (idx2_lt1 j)⟩ d ⟨(q 0).val, idx2_lt0 q⟩ h0).trans
      (by rw [ec])

theorem zero3 : (![0, 0, 0] : Fin 3 → Nat) = fun _ => 0 := funext fun a => by fin_cases a <;> rfl

/-- The matrix the stores read from is the matrix of inner products of the block the kernel loaded whole. -/
theorem kept_inner (c : Dev nD) (a1 : Memref sig .tc .vmem S256x64x128 .f32) (h1 : a1.IsWhole)
    (x0 : Vec Ideal S256x64x128 .f32) : kernelRun0_A.sl.r c a1 h1 x0 = k0_pay5 x0 := by
  unfold kernelRun0_A.sl.r
  rw [View.readAt_eq_ld, h1.read_unread, View.ld_unit_zero (S := S256x64x128) zero3]

/-- ALL 63 STORES: each piece the body leaves in the output block is the block function on its rectangle. -/
theorem pieces (c : Dev nD) (i : grid0.Coords) (a1 : Memref sig .tc .vmem S256x64x128 .f32) (h1 : a1.IsWhole)
    (a2 : Memref sig .tc .vmem S256x2016 .f32) (h2 : a2.IsWhole) (x0 : Vec Ideal S256x64x128 .f32) :
    ∀ p ∈ (kernelRun0_A c i a1 h1 a2 h2 x0).1, ∀ x : p.1.shape.Idx, p.2 x = Gblk x0 (p.1.emb x) := by
  refine List.forall_iff_forall_mem.mp ?_
  have hv := kept_inner c a1 h1 x0
  unfold kernelRun0_A
  dsimp only
  repeat' refine And.intro ?_ ?_
  all_goals exact fun x => piece_apply x0 _ hv _ _ (by decide) (by decide) (by decide) (by decide) (by decide) (by decide) x

end Cert.Tril.Kern

end
-- ==== Proof.KernBlock.lean ====
/-
  What one grid point leaves in the output block: the 63 stored pieces cover the 256 x 2016 block, and each is
  the block function on its rectangle, so the pieces written into any buffer of that shape read back as the
  block function of the loaded block, whatever the buffer held before.
-/
import proofs.«176202_j4166118277508_2_alg».proof.Proof.KernPieces
import proofs.«176202_j4166118277508_2_alg».proof.Proof.KernCover

set_option maxRecDepth 16384

noncomputable section

namespace Cert.Tril.Kern

open Cert.KernelIdeal Cert.KernelIdeal.Gen Idealize.ShloMosaic Idealize.ShloMosaic.TcCoe Idealize.SL.Sem
open Idealize.ShloMosaic.ValueIdx

/-- THE BLOCK: after the body's stores, a buffer of the output block's shape holds, at sample b and entry
    number k, the inner product of embeddings row k and col k of sample b of the input block. Every index lies in
    some stored piece, and every piece agrees with the block function, so the pieces read back as that one
    function. -/
theorem block_read (c : Dev nD) (i : grid0.Coords) (a1 : Memref sig .tc .vmem S256x64x128 .f32) (h1 : a1.IsWhole)
    (a2 : Memref sig .tc .vmem S256x2016 .f32) (h2 : a2.IsWhole) (x0 : Vec Ideal S256x64x128 .f32)
    (v : View sig .tc .vmem S256x2016 .f32) (f : v.ty.Contents (Elt Ideal)) :
    v.read (Elt Ideal) (v.writes (Elt Ideal) f (kernelRun0_A c i a1 h1 a2 h2 x0).1) = Gblk x0 := by
  rw [View.read_writes_eq_canon v f _ (cover c i a1 h1 a2 h2 x0)]
  funext y
  exact View.canon_apply_of_pieces (Gblk x0) _ (pieces c i a1 h1 a2 h2 x0) y (cover c i a1 h1 a2 h2 x0 y)

end Cert.Tril.Kern

end
-- ==== Proof.KernArray.lean ====
/-
  From blocks to the array. Grid point t reads samples 256 t .. 256 t + 255 of the input array and writes rows
  256 t .. 256 t + 255 of the output array; the block function of block t of an array is the array's own
  function (gram) on those rows; and row r of the output array lies in the block of point r / 256, so the 32
  blocks cover the 8192 rows.
-/
import proofs.«176202_j4166118277508_2_alg».proof.Proof.KernBlock

set_option maxRecDepth 16384

noncomputable section

namespace Cert.Tril.Kern

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The block indices, decided over the 32 grid points: both windows move along the sample axis with the point
    and stay at zero on the other axes. -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- The input block at point t is samples 256 t .. 256 t + 255 of the input array. -/
theorem iblk_apply (c : Dev nD) (t : Fin cfg0.N) (b : Fin 256) (i : Fin 64) (d : Fin 128) (B : Fin 8192)
    (hB : B.val = 256 * t.val + b.val) :
    (iblk m c 0 t : Vec Ideal S256x64x128 .f32) (ix3 b i d)
      = (m ((c : Thread nD τ).loc main_arg0) : S8192x64x128.Idx → Elt Ideal .f32) (ix3 B i d) := by
  obtain ⟨e0, e1, e2, -, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 3) * 256 + 1 * b.val = B.val; rw [e0, hB]; omega
  | ⟨1, _⟩ => show win0_0.index t (1 : Fin 3) * 64 + 1 * i.val = i.val; rw [e1]; omega
  | ⟨2, _⟩ => show win0_0.index t (2 : Fin 3) * 128 + 1 * d.val = d.val; rw [e2]; omega

/-- BLOCK t OF THE RESULT: the block function of the input block at point t, as point t writes it back, is
    block t of gram of the input array. -/
theorem cut_block (c : Dev nD) (t : Fin cfg0.N) :
    (cfg0.win 1).cut (grid0.coords t) (Gblk (iblk m c 0 t))
      = ((cfg0.win 1).blk t).view.read (Elt Ideal) (gram (V m c main_arg0)) := by
  obtain ⟨-, -, -, e3, e4⟩ := idx_facts t
  funext j
  show Gblk (iblk m c 0 t) ((cfg0.win 1).xinj (grid0.coords t) j)
    = gram (V m c main_arg0) (((cfg0.win 1).blk t).view.emb j)
  refine Gblk_block (V m c main_arg0) (iblk m c 0 t) t.val (fun b i d B hB => iblk_apply m c t b i d B hB)
    ((cfg0.win 1).xinj (grid0.coords t) j) (((cfg0.win 1).blk t).view.emb j) ?_ ?_
  · show win0_1.index t (0 : Fin 2) * 256 + 1 * (j 0).val = 256 * t.val + (j 0).val; rw [e3]; omega
  · show win0_1.index t (1 : Fin 2) * 2016 + 1 * (j 1).val = (j 1).val; rw [e4]; omega

/-- An index of the output array is in point t's block iff each coordinate is in the block's range. -/
theorem mem_blk (t : Fin cfg0.N) (i : S8192x2016.Idx) :
    i ∈ ((cfg0.win 1).blk t).view.set ↔ ∀ a : Fin 2, win0_1.index t a * S256x2016.size a ≤ (i a).val
      ∧ (i a).val < win0_1.index t a * S256x2016.size a + S256x2016.size a := by
  show i ∈ ((View.whole main_v0).slice (win0_1.rect t)).set ↔ _
  rw [View.set_slice_whole, Rect.mem_set_unit]
  exact Iff.rfl

/-- THE COVER: row r of the output array lies in the block of point r / 256, and every point writes back. -/
theorem cover_rows (i : S8192x2016.Idx) :
    ∃ t : Fin cfg0.N, (cfg0.win 1).flush t = true ∧ i ∈ ((cfg0.win 1).blk t).view.set := by
  have hi0 : (i 0).val < 8192 := (i 0).isLt
  have hi1 : (i 1).val < 2016 := (i 1).isLt
  have hN : cfg0.N = 32 := N_0
  have ht : (i 0).val / 256 < cfg0.N := by rw [hN]; omega
  obtain ⟨-, -, -, e3, e4⟩ := idx_facts ⟨(i 0).val / 256, ht⟩
  refine ⟨⟨(i 0).val / 256, ht⟩, flush0_1 _, ?_⟩
  rw [mem_blk]
  intro a
  match a with
  | ⟨0, _⟩ =>
    show win0_1.index ⟨(i 0).val / 256, ht⟩ (0 : Fin 2) * 256 ≤ (i 0).val
      ∧ (i 0).val < win0_1.index ⟨(i 0).val / 256, ht⟩ (0 : Fin 2) * 256 + 256
    rw [e3]; show (i 0).val / 256 * 256 ≤ (i 0).val ∧ (i 0).val < (i 0).val / 256 * 256 + 256; omega
  | ⟨1, _⟩ =>
    show win0_1.index ⟨(i 0).val / 256, ht⟩ (1 : Fin 2) * 2016 ≤ (i 1).val
      ∧ (i 1).val < win0_1.index ⟨(i 0).val / 256, ht⟩ (1 : Fin 2) * 2016 + 2016
    rw [e4]; omega

end Cert.Tril.Kern

end
-- ==== Proof.KernValue.lean ====
/-
  The kernel's value. Grid point t writes back to rows 256 t .. 256 t + 255 of the output array the block its
  body leaves, which is the block function of the input block at t, which is block t of gram of the input
  array; the 32 blocks cover the output array. So the output array ends holding gram of the input array, and
  the input array is unchanged.
-/
import proofs.«176202_j4166118277508_2_alg».proof.Proof.KernArray
import proofs.«176202_j4166118277508_2_alg».proof.Proof.FrameKI
import Idealize.ShloMosaic.Lib.Pipeline.Value

set_option maxRecDepth 16384

noncomputable section

namespace Cert.Tril.Kern

open Cert.KernelIdeal Cert.KernelIdeal.Gen Cert.KernelIdeal.GenP Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

/-- WHAT POINT t WRITES BACK — the output block as the body leaves it, read through the window — is block t of
    gram of the input array. -/
theorem flushed_eq (c : Dev nD) (t : Fin cfg0.N) :
    (dats m 0 c).flushed 1 t = ((cfg0.win 1).blk t).view.read (Elt Ideal) (gram (V m c main_arg0)) := by
  show (cfg0.win 1).cut (grid0.coords t) ((dats m 0 c).after 1 t) = _
  rw [after0_1]
  unfold outsAt0 out0_A_1
  rw [block_read c (grid0.coords t) (ms0_0 t) (hs0_0 t) (ms0_1 t) (hs0_1 t) (iblk m c 0 t) VO0_1 VO0_1.junk]
  exact cut_block m c t

/-- THE ARRAY after the run: gram of the input array as the region finds it. -/
theorem final (c : Dev nD) : (dats m 0 c).arrAt 1 cfg0.N = gram (V m c main_arg0) :=
  (dats m 0 c).arrAt_eq_of_cover 1 (gram (V m c main_arg0)) (fun t _ => flushed_eq m c t) cover_rows

/-- THE RUN, READ: every execution of the kernel's program terminates with the output array at gram of the
    input array as launched, and the input array — which its window stages and never writes back — unchanged. -/
theorem run :
    θ_run (Cert.KernelIdeal.defs (F := Ideal)) (onTc (τ := Cert.KernelIdeal.τ) (Cert.KernelIdeal.main (F := Ideal)))
      ⟨m, fun _ => 0, ρ⟩ fun r => ∀ c : Dev Cert.KernelIdeal.nD,
        r.2.mem ((c.tc : Thread Cert.KernelIdeal.nD Cert.KernelIdeal.τ).loc Cert.KernelIdeal.main_v0)
            = Cert.Tril.gram (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.Tril.Kern

end
-- ==== Proof.RefTerms.lean ====
/-
  What the reference computes, written as named terms over its own operations. The index pairs are found
  the way `nonzero` finds them: the 64 x 64 mask "column below row" is flattened to 4096 positions, its
  running count is taken, each count value is tallied by a scatter-add of ones into 2016 bins, and the running
  sum of the tallies gives, for entry number k, the flat position of the k-th selected cell; a floor division
  and a remainder by 64 split that position into a row and a column, and the Gram tensor is gathered there.
-/
import proofs.«176202_j4166118277508_2_alg».proof.ReferenceIdeal

noncomputable section

namespace Cert.ReferenceIdeal.Terms

open Idealize.ShloMosaic Cert.ReferenceIdeal

variable {F : FTy → Type} [FloatOps F] [Facts]
open Facts₀ Facts

/-- A scalar broadcast over the 2016 entries. -/
abbrev spread {α : Type} (v : S_.Idx → α) : S2016.Idx → α := broadcastInDim S2016 ![] bcast_S_S2016 v

/-- A scalar broadcast over the 4096 flat positions. -/
abbrev spread4096 {α : Type} (v : S_.Idx → α) : S4096.Idx → α := broadcastInDim S4096 ![] bcast_S_S4096 v

/-- A scalar broadcast over the 64 x 64 cells. -/
abbrev spread64 {α : Type} (v : S_.Idx → α) : S64x64.Idx → α := broadcastInDim S64x64 ![] bcast_S_S64x64 v

/-- 1 at the cells whose row number minus one is at least the column number. -/
def below : IVec S64x64 1 :=
  cmpi .sge (addi (iotaInDim S64x64 32 0) (spread64 (constantI S_ 32 4294967295#32))) (iotaInDim S64x64 32 1)

/-- The lower triangle of a matrix of ones: 1.0 below the diagonal, 0.0 elsewhere. -/
def lower : FVec F S64x64 .f32 :=
  select below (spread64 (constant S_ .f32 0x3F800000#32)) (spread64 (constant S_ .f32 0x00000000#32))

/-- Where that matrix is not zero. -/
def mask : IVec S64x64 1 := cmpf .une (lower (F := F)) (spread64 (constant S_ .f32 0x00000000#32))

/-- The mask flattened to 4096 positions, as 32-bit words 0 or 1. -/
def flat : IVec S4096 32 := extui 32 (shapeCast S4096 (mask (F := F)) shapeCasts_S64x64_S4096) natLt_1_32

/-- The scalar zero the running sums start from. -/
def zero0 : IVec S_ 32 := broadcastInDim S_ ![] bcast_S_S_ (constantI S_ 32 0#32)

/-- The running count of selected positions. -/
def running : IVec S4096 32 :=
  Host.reduceWindow IntOp.addi ![4096] ![1] ![4095] ![0] (flat (F := F)) zero0 reduceWindows_S4096_S4096_w4096s1p4095_0 h_S_

/-- The running count clipped below at zero. -/
def clipped : IVec S4096 32 := maxsi (spread4096 (id (constantI S_ 32 0#32))) (running (F := F))

/-- A negative bin number counted from the end (none is negative). -/
def wrapped : IVec S4096 32 :=
  select (cmpi .slt (clipped (F := F)) (spread4096 (constantI S_ 32 0#32)))
    (addi (clipped (F := F)) (spread4096 (constantI S_ 32 2016#32))) (clipped (F := F))

/-- How many positions have each running count: ones added into 2016 bins. -/
def counts : IVec S2016 32 :=
  Host.scatter scatter_S2016_S4096x1_S4096_n_0_0_1 IntOp.addi (spread (constantI S_ 32 0#32))
    (broadcastInDim S4096x1 ![0] bcast_S4096_S4096x1_0 (wrapped (F := F))) (spread4096 (constantI S_ 32 1#32))

/-- The running sum of the tallies: the flat position of each selected cell, in order. -/
def positions : IVec S2016 32 :=
  Host.reduceWindow IntOp.addi ![2016] ![1] ![2015] ![0] (counts (F := F)) zero0 reduceWindows_S2016_S2016_w2016s1p2015_0 h_S_

/-- Division rounding toward minus infinity, from the truncating quotient: one less when the signs differ and
    the remainder is not zero. -/
def floorDiv (a : IVec S2016 32) (b : IVec S_ 32) : IVec S2016 32 :=
  select (andi (cmpi .ne (signi a) (spread (signi b))) (cmpi .ne (Host.remsi a (spread b)) (spread (constantI S_ 32 0#32))))
    (subi (Host.divsi a (spread b)) (spread (constantI S_ 32 1#32))) (Host.divsi a (spread b))

/-- The divisor with zero replaced by one. -/
def divisor (b : IVec S_ 32) : IVec S_ 32 := select (cmpi .eq (id b) (constantI S_ 32 0#32)) (constantI S_ 32 1#32) (id b)

/-- The remainder with the divisor's sign, from the truncating remainder: the divisor added when the signs
    differ and the remainder is not zero. -/
def remainder (a : IVec S2016 32) (b : IVec S_ 32) : IVec S2016 32 :=
  select (andi (cmpi .ne (cmpi .slt (Host.remsi a (spread (divisor b))) (spread (constantI S_ 32 0#32)))
                 (spread (cmpi .slt (divisor b) (constantI S_ 32 0#32))))
            (cmpi .ne (Host.remsi a (spread (divisor b))) (spread (constantI S_ 32 0#32))))
    (addi (Host.remsi a (spread (divisor b))) (spread (divisor b))) (Host.remsi a (spread (divisor b)))

/-- A negative coordinate counted from the end of an axis of extent 64. -/
def wrap64 (v : IVec S2016 32) : IVec S2016 32 :=
  select (cmpi .slt v (spread (constantI S_ 32 0#32))) (addi v (spread (constantI S_ 32 64#32))) v

/-- The row of each selected cell: (position / 64) mod 64. -/
def rows : IVec S2016 32 :=
  wrap64 (remainder (floorDiv (positions (F := F)) (constantI S_ 32 64#32)) (constantI S_ 32 64#32))

/-- The column of each selected cell: (position / 1) mod 64. -/
def cols : IVec S2016 32 :=
  wrap64 (remainder (floorDiv (positions (F := F)) (constantI S_ 32 1#32)) (constantI S_ 32 64#32))

/-- The (row, column) pairs, one per entry. -/
def pairs : IVec S2016x2 32 :=
  concatenate S2016x2 1 [⟨S2016x1, broadcastInDim S2016x1 ![0] bcast_S2016_S2016x1_0 (rows (F := F))⟩,
    ⟨S2016x1, broadcastInDim S2016x1 ![0] bcast_S2016_S2016x1_0 (cols (F := F))⟩] concatenates_S2016x1_S2016x1_S2016x2_d1

/-- The result: each sample's Gram matrix read at the selected cells. -/
def out (x : FVec F S8192x64x128 .f32) : FVec F S8192x2016 .f32 :=
  Host.gather gather_S8192x64x64_S2016x2_S8192x2016_0_12_n_n_12_1_819211
    (Host.dotGeneral dot_S8192x64x128_S8192x64x128_S8192x64x64_2_2_1_1_0_0 none x x) (pairs (F := F))

end Cert.ReferenceIdeal.Terms

end
-- ==== Proof.RefRun.lean ====
/-
  The reference's run. Its @main is a straight line of operations once each module-local function is read at
  its call (a call's body over that call's own buffers); every weakly fair execution of that line
  terminates, leaves the argument as it was, and leaves in the result buffer the operations' composed term
  of the argument: the Gram tensor gathered at the computed (row, column) pairs (`Terms.out`).
-/
import proofs.«176202_j4166118277508_2_alg».proof.Proof.Gen.ReferenceIdeal
import proofs.«176202_j4166118277508_2_alg».proof.Proof.RefTerms
import Idealize.ShloMosaic.Lib.StableHlo.Run

noncomputable section

namespace Cert.ReferenceIdeal.RefRun

open Cert.ReferenceIdeal Cert.ReferenceIdeal.Terms
open Idealize.ShloMosaic Idealize.ShloMosaic.TcCoe Idealize.SL.Sem Idealize.ShloMosaic.StableHlo
open Facts₀ Facts

variable {F : FTy → Type} [FloatOps F]

/-! The operands that a module-local function receives from @main, as typed references. -/
abbrev r1 : TRef sig ⟨S64x64, .f32⟩ := .of main_v1
abbrev r4 : TRef sig ⟨S64x64, .i1⟩ := .of main_v4
abbrev r5 : TRef sig ⟨S4096, .i32⟩ := .of main_v5
abbrev r15 : TRef sig ⟨S2016, .i32⟩ := .of main_v15
abbrev r16 : TRef sig ⟨S2016, .i32⟩ := .of main_v16
abbrev r17 : TRef sig ⟨S2016, .i32⟩ := .of main_v17
abbrev r19 : TRef sig ⟨S2016, .i32⟩ := .of main_v19
abbrev k1 : TRef sig ⟨S_, .i32⟩ := .of main_c_1
abbrev k5 : TRef sig ⟨S_, .i32⟩ := .of main_c_5
abbrev k6 : TRef sig ⟨S_, .i32⟩ := .of main_c_6
abbrev k7 : TRef sig ⟨S_, .i32⟩ := .of main_c_7
abbrev k8 : TRef sig ⟨S_, .i32⟩ := .of main_c_8

/-- Two columns side by side as a two-column table. -/
def pairUp (a b : IVec S2016x1 32) : IVec S2016x2 32 :=
  concatenate S2016x2 1 [⟨S2016x1, a⟩, ⟨S2016x1, b⟩] concatenates_S2016x1_S2016x1_S2016x2_d1

/-- The tallies from a running count: clipped at zero, negative bins counted from the end, ones added per bin. -/
def countsOf (run : IVec S4096 32) : IVec S2016 32 :=
  Host.scatter scatter_S2016_S4096x1_S4096_n_0_0_1 IntOp.addi (spread (constantI S_ 32 0#32))
    (broadcastInDim S4096x1 ![0] bcast_S4096_S4096x1_0
      (select (cmpi .slt (maxsi (spread4096 (id (constantI S_ 32 0#32))) run) (spread4096 (constantI S_ 32 0#32)))
        (addi (maxsi (spread4096 (id (constantI S_ 32 0#32))) run) (spread4096 (constantI S_ 32 2016#32)))
        (maxsi (spread4096 (id (constantI S_ 32 0#32))) run)))
    (spread4096 (constantI S_ 32 1#32))

/-- The running sum of tallies. -/
def positionsOf (tally : IVec S2016 32) : IVec S2016 32 :=
  Host.reduceWindow IntOp.addi ![2016] ![1] ![2015] ![0] tally zero0 reduceWindows_S2016_S2016_w2016s1p2015_0 h_S_

/-- The row of a selected cell from its flat position. -/
def rowsOf (pos : IVec S2016 32) : IVec S2016 32 :=
  wrap64 (remainder (floorDiv pos (constantI S_ 32 64#32)) (constantI S_ 32 64#32))

/-- The column of a selected cell from its flat position. -/
def colsOf (pos : IVec S2016 32) : IVec S2016 32 :=
  wrap64 (remainder (floorDiv pos (constantI S_ 32 1#32)) (constantI S_ 32 64#32))

/-- The (row, column) table from the flat positions. -/
def pairsOf (pos : IVec S2016 32) : IVec S2016x2 32 :=
  pairUp (broadcastInDim S2016x1 ![0] bcast_S2016_S2016x1_0 (rowsOf pos))
    (broadcastInDim S2016x1 ![0] bcast_S2016_S2016x1_0 (colsOf pos))

/-- The running count of the selected positions (mask flattened, running sum), and the Gram product. -/
abbrev opsA1 : List (HloOp τ sig (Elt F)) :=
  [ binary main_arg0 main_arg0 main_v0 (fun l r => Host.dotGeneral dot_S8192x64x128_S8192x64x128_S8192x64x64_2_2_1_1_0_0 none l r),
    nullary main_cst (constant S_ .f32 0x3F800000#32),
    unary main_cst main_v1 spread64,
    -- the lower triangle of the matrix of ones
    TRef.nullary main_call0.v0 (iotaInDim S64x64 32 0),
    TRef.nullary main_call0.c (constantI S_ 32 4294967295#32),
    TRef.unary main_call0.c main_call0.v1 spread64,
    TRef.binary main_call0.v0 main_call0.v1 main_call0.v2 addi,
    TRef.nullary main_call0.v3 (iotaInDim S64x64 32 1),
    TRef.binary main_call0.v2 main_call0.v3 main_call0.v4 (cmpi .sge),
    TRef.nullary main_call0.cst (constant S_ .f32 0x00000000#32),
    TRef.unary main_call0.cst main_call0.v5 spread64,
    TRef.ternary main_call0.v4 r1 main_call0.v5 main_call0.v6 select,
    nullary main_cst_0 (constant S_ .f32 0x00000000#32),
    unary main_cst_0 main_v3 spread64,
    binary main_v2 main_v3 main_v4 (cmpf .une),
    -- its running count over the 4096 flat positions
    TRef.reshape r4 main_call1.v0 rfl shapeCasts_S64x64_S4096,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![4096] ![1] ![4095] ![0] x v reduceWindows_S4096_S4096_w4096s1p4095_0 h_S_) ]

/-- The tallies: how many positions have each running count. -/
abbrev opsA2 : List (HloOp τ sig (Elt F)) :=
  [ nullary main_c (constantI S_ 32 0#32),
    unary main_c main_v6 spread,
    nullary main_c_1 (constantI S_ 32 0#32),
    -- clipped at zero, negative bins counted from the end
    TRef.unary k1 main_call2.v0 id,
    TRef.unary main_call2.v0 main_call2.v1 spread4096,
    TRef.binary main_call2.v1 r5 main_call2.v2 maxsi,
    nullary main_c_2 (constantI S_ 32 0#32),
    unary main_c_2 main_v8 spread4096,
    binary main_v7 main_v8 main_v9 (cmpi .slt),
    nullary main_c_3 (constantI S_ 32 2016#32),
    unary main_c_3 main_v10 spread4096,
    binary main_v7 main_v10 main_v11 addi,
    ternary main_v9 main_v11 main_v7 main_v12 select,
    unary main_v12 main_v13 (broadcastInDim S4096x1 ![0] bcast_S4096_S4096x1_0),
    nullary main_c_4 (constantI S_ 32 1#32),
    unary main_c_4 main_v14 spread4096,
    -- the tallies, and their running sum
    ternary main_v6 main_v13 main_v14 main_v15 (fun x i u => Host.scatter scatter_S2016_S4096x1_S4096_n_0_0_1 IntOp.addi x i u) ]

/-- The running sum of the tallies: the flat positions of the selected cells. -/
abbrev opsA3 : List (HloOp τ sig (Elt F)) :=
  [ TRef.nullary main_call3.call0.c (constantI S_ 32 0#32),
    TRef.unary main_call3.call0.c main_call3.call0.v0 (broadcastInDim S_ ![] bcast_S_S_),
    TRef.binary r15 main_call3.call0.v0 main_call3.call0.v1 (fun x v => Host.reduceWindow IntOp.addi ![2016] ![1] ![2015] ![0] x v reduceWindows_S2016_S2016_w2016s1p2015_0 h_S_) ]

/-- The second part: positions split into rows and columns, the pairs table, the gather. -/
abbrev opsB : List (HloOp τ sig (Elt F)) :=
  [ nullary main_c_5 (constantI S_ 32 64#32),
    -- position / 64, rounding down
    TRef.unary k5 main_call4.v0 spread,
    TRef.binary r16 main_call4.v0 main_call4.v1 Host.divsi,
    TRef.unary r16 main_call4.v2 signi,
    TRef.unary k5 main_call4.v3 signi,
    TRef.unary main_call4.v3 main_call4.v4 spread,
    TRef.binary main_call4.v2 main_call4.v4 main_call4.v5 (cmpi .ne),
    TRef.unary k5 main_call4.v6 spread,
    TRef.binary r16 main_call4.v6 main_call4.v7 Host.remsi,
    TRef.nullary main_call4.c (constantI S_ 32 0#32),
    TRef.unary main_call4.c main_call4.v8 spread,
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 spread,
    TRef.binary main_call4.v1 main_call4.v11 main_call4.v12 subi,
    TRef.ternary main_call4.v10 main_call4.v12 main_call4.v1 main_call4.call0.v0 select,
    nullary main_c_6 (constantI S_ 32 64#32),
    -- … mod 64
    TRef.unary k6 main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 spread,
    TRef.binary r17 main_call5.v3 main_call5.v4 Host.remsi,
    TRef.nullary main_call5.c_1 (constantI S_ 32 0#32),
    TRef.unary main_call5.c_1 main_call5.v5 spread,
    TRef.binary main_call5.v4 main_call5.v5 main_call5.v6 (cmpi .ne),
    TRef.nullary main_call5.c_2 (constantI S_ 32 0#32),
    TRef.unary main_call5.c_2 main_call5.v7 spread,
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 spread,
    TRef.binary main_call5.v8 main_call5.v10 main_call5.v11 (cmpi .ne),
    TRef.binary main_call5.v11 main_call5.v6 main_call5.v12 andi,
    TRef.unary main_call5.call0.v0 main_call5.v13 spread,
    TRef.binary main_call5.v4 main_call5.v13 main_call5.v14 addi,
    TRef.ternary main_call5.v12 main_call5.v14 main_call5.v4 main_call5.v15 select,
    nullary main_c_7 (constantI S_ 32 1#32),
    -- position / 1, rounding down
    TRef.unary k7 main_call6.v0 spread,
    TRef.binary r16 main_call6.v0 main_call6.v1 Host.divsi,
    TRef.unary r16 main_call6.v2 signi,
    TRef.unary k7 main_call6.v3 signi,
    TRef.unary main_call6.v3 main_call6.v4 spread,
    TRef.binary main_call6.v2 main_call6.v4 main_call6.v5 (cmpi .ne),
    TRef.unary k7 main_call6.v6 spread,
    TRef.binary r16 main_call6.v6 main_call6.v7 Host.remsi,
    TRef.nullary main_call6.c (constantI S_ 32 0#32),
    TRef.unary main_call6.c main_call6.v8 spread,
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 spread,
    TRef.binary main_call6.v1 main_call6.v11 main_call6.v12 subi,
    TRef.ternary main_call6.v10 main_call6.v12 main_call6.v1 main_call6.call0.v0 select,
    nullary main_c_8 (constantI S_ 32 64#32),
    -- … mod 64
    TRef.unary k8 main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 spread,
    TRef.binary r19 main_call7.v3 main_call7.v4 Host.remsi,
    TRef.nullary main_call7.c_1 (constantI S_ 32 0#32),
    TRef.unary main_call7.c_1 main_call7.v5 spread,
    TRef.binary main_call7.v4 main_call7.v5 main_call7.v6 (cmpi .ne),
    TRef.nullary main_call7.c_2 (constantI S_ 32 0#32),
    TRef.unary main_call7.c_2 main_call7.v7 spread,
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 spread,
    TRef.binary main_call7.v8 main_call7.v10 main_call7.v11 (cmpi .ne),
    TRef.binary main_call7.v11 main_call7.v6 main_call7.v12 andi,
    TRef.unary main_call7.call0.v0 main_call7.v13 spread,
    TRef.binary main_call7.v4 main_call7.v13 main_call7.v14 addi,
    TRef.ternary main_call7.v12 main_call7.v14 main_call7.v4 main_call7.v15 select,
    -- negative coordinates counted from the end, the pairs, the gather
    nullary main_c_9 (constantI S_ 32 0#32),
    unary main_c_9 main_v21 spread,
    binary main_v18 main_v21 main_v22 (cmpi .slt),
    nullary main_c_10 (constantI S_ 32 64#32),
    unary main_c_10 main_v23 spread,
    binary main_v18 main_v23 main_v24 addi,
    ternary main_v22 main_v24 main_v18 main_v25 select,
    nullary main_c_11 (constantI S_ 32 0#32),
    unary main_c_11 main_v26 spread,
    binary main_v20 main_v26 main_v27 (cmpi .slt),
    nullary main_c_12 (constantI S_ 32 64#32),
    unary main_c_12 main_v28 spread,
    binary main_v20 main_v28 main_v29 addi,
    ternary main_v27 main_v29 main_v20 main_v30 select,
    unary main_v25 main_v31 (broadcastInDim S2016x1 ![0] bcast_S2016_S2016x1_0),
    unary main_v30 main_v32 (broadcastInDim S2016x1 ![0] bcast_S2016_S2016x1_0),
    binary main_v31 main_v32 main_v33 pairUp,
    binary main_v0 main_v33 main_v34 (fun x i => Host.gather gather_S8192x64x64_S2016x2_S8192x2016_0_12_n_n_12_1_819211 x i) ]

/-- @main's operations in order. -/
abbrev ops : List (HloOp τ sig (Elt F)) := opsA1 ++ (opsA2 ++ (opsA3 ++ opsB))

set_option maxRecDepth 8192 in
/-- @main is that straight line: the module-local functions unfolded at their calls, sequencing re-associated. -/
theorem main_eq (c : Dev nD) : main (F := F) c = seq ops := by
  simp only [ops, opsA1, opsA2, opsA3, opsB, List.cons_append, List.nil_append, main, fn_tril.body, fn_cumsum.body, fn_cumsum_0.body, fn_clip.body, fn_cumsum_1.body, fn_cumsum_2.body,
    fn_where.body, fn_floor_divide.body, fn_where_3.body, fn_remainder.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Contents carried to a buffer's own type and back are unchanged. -/
theorem ofBuf_toBuf {T : BufTy} (x : TRef sig T) (v : T.Contents (Elt F)) : x.ofBuf (x.toBuf v) = v := by
  unfold TRef.ofBuf TRef.toBuf
  simp only [cast_cast, cast_eq]

attribute [local irreducible] select cmpi cmpf addi subi andi maxsi signi extui shapeCast Host.divsi Host.remsi
  broadcastInDim iotaInDim constantI constant Host.reduceWindow Host.scatter Host.gather concatenate in
set_option maxRecDepth 16384 in
/-- After the first stretch the running-count buffer holds the running count, whatever the argument. -/
theorem running_A1 (V : Valuation τ sig (Elt F)) : after opsA1 V (main_v5 : DevRef τ sig) = Terms.running (F := F) := by
  after_results_simp
  simp only [ofBuf_toBuf]
  rfl

set_option maxRecDepth 16384 in
/-- … and the product buffer the Gram tensor of the argument. -/
theorem gram_A1 (V : Valuation τ sig (Elt F)) :
    after opsA1 V (main_v0 : DevRef τ sig)
      = Host.dotGeneral dot_S8192x64x128_S8192x64x128_S8192x64x64_2_2_1_1_0_0 none (V (main_arg0 : DevRef τ sig)) (V (main_arg0 : DevRef τ sig)) := by
  after_results_simp

set_option maxRecDepth 16384 in
theorem arg0_A1 (V : Valuation τ sig (Elt F)) : after opsA1 V (main_arg0 : DevRef τ sig) = V (main_arg0 : DevRef τ sig) := by
  after_results_simp

attribute [local irreducible] select cmpi cmpf addi subi andi maxsi signi extui shapeCast Host.divsi Host.remsi
  broadcastInDim iotaInDim constantI constant Host.reduceWindow Host.scatter Host.gather concatenate in
set_option maxRecDepth 16384 in
/-- The second stretch, from any contents: the tallies of the running-count buffer. -/
theorem counts_A2 (W : Valuation τ sig (Elt F)) : after opsA2 W (main_v15 : DevRef τ sig) = countsOf (W (main_v5 : DevRef τ sig)) := by
  after_results_simp
  simp only [ofBuf_toBuf]
  rfl

set_option maxRecDepth 16384 in
theorem gram_A2 (W : Valuation τ sig (Elt F)) : after opsA2 W (main_v0 : DevRef τ sig) = W (main_v0 : DevRef τ sig) := by
  after_results_simp

set_option maxRecDepth 16384 in
theorem arg0_A2 (W : Valuation τ sig (Elt F)) : after opsA2 W (main_arg0 : DevRef τ sig) = W (main_arg0 : DevRef τ sig) := by
  after_results_simp

attribute [local irreducible] select cmpi cmpf addi subi andi maxsi signi extui shapeCast Host.divsi Host.remsi
  broadcastInDim iotaInDim constantI constant Host.reduceWindow Host.scatter Host.gather concatenate in
set_option maxRecDepth 16384 in
/-- The third stretch, from any contents: the running sum of the tallies buffer. -/
theorem positions_A3 (W : Valuation τ sig (Elt F)) : after opsA3 W (main_v16 : DevRef τ sig) = positionsOf (W (main_v15 : DevRef τ sig)) := by
  after_results_simp
  simp only [ofBuf_toBuf]
  rfl

set_option maxRecDepth 16384 in
theorem gram_A3 (W : Valuation τ sig (Elt F)) : after opsA3 W (main_v0 : DevRef τ sig) = W (main_v0 : DevRef τ sig) := by
  after_results_simp

set_option maxRecDepth 16384 in
theorem arg0_A3 (W : Valuation τ sig (Elt F)) : after opsA3 W (main_arg0 : DevRef τ sig) = W (main_arg0 : DevRef τ sig) := by
  after_results_simp

attribute [local irreducible] select cmpi cmpf addi subi andi maxsi signi extui shapeCast Host.divsi Host.remsi
  broadcastInDim iotaInDim constantI constant Host.reduceWindow Host.scatter Host.gather concatenate in
set_option maxRecDepth 16384 in
set_option maxHeartbeats 1600000 in
/-- The last stretch, from any contents: the product buffer gathered at the pairs made from the positions buffer. -/
theorem out_B (W : Valuation τ sig (Elt F)) :
    after opsB W (main_v34 : DevRef τ sig)
      = Host.gather gather_S8192x64x64_S2016x2_S8192x2016_0_12_n_n_12_1_819211 (W (main_v0 : DevRef τ sig))
          (pairsOf (W (main_v16 : DevRef τ sig))) := by
  after_results_simp
  simp only [ofBuf_toBuf]
  rfl

set_option maxRecDepth 16384 in
theorem arg0_B (W : Valuation τ sig (Elt F)) : after opsB W (main_arg0 : DevRef τ sig) = W (main_arg0 : DevRef τ sig) := by
  after_results_simp

attribute [local irreducible] select cmpi cmpf addi subi andi maxsi signi extui shapeCast Host.divsi Host.remsi
  broadcastInDim iotaInDim constantI constant Host.reduceWindow Host.scatter Host.gather concatenate in
/-- What the whole line leaves in the result buffer is the named term of the argument. -/
theorem out_eq (V : Valuation τ sig (Elt F)) :
    after ops V (main_v34 : DevRef τ sig) = Terms.out (F := F) (V (main_arg0 : DevRef τ sig)) := by
  show after (opsA1 ++ (opsA2 ++ (opsA3 ++ opsB))) V _ = _
  rw [after_append, after_append, after_append, out_B, gram_A3, gram_A2, gram_A1, positions_A3, counts_A2, running_A1]
  rfl

/-- No operation writes the argument. -/
theorem arg0_eq (V : Valuation τ sig (Elt F)) : after ops V (main_arg0 : DevRef τ sig) = V (main_arg0 : DevRef τ sig) := by
  show after (opsA1 ++ (opsA2 ++ (opsA3 ++ opsB))) V _ = _
  rw [after_append, after_append, after_append, arg0_B, arg0_A3, arg0_A2, arg0_A1]

/-- Every operation touches TensorCore buffers only. -/
theorem ops_sub : (ops : List (HloOp τ sig (Elt F))).Forall fun op => op.bufs ⊆ tcRefs τ sig := by
  simp only [ops, opsA1, opsA2, opsA3, opsB, List.cons_append, List.nil_append]
  repeat' (refine (List.forall_cons _ _ _).2 ⟨?_, ?_⟩)
  all_goals first
    | (with_reducible first
        | exact nullary_bufs_sub .. | exact unary_bufs_sub .. | exact binary_bufs_sub ..
        | exact ternary_bufs_sub .. | exact reshape_bufs_sub ..)
    | exact trivial

/-- From any memory with zero counters every weakly fair execution of the reference terminates, leaves the
    argument as it was, and leaves in the result buffer `Terms.out` of the argument. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = Terms.out (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v34).trans (out_eq _), (h c main_arg0).trans (arg0_eq _)⟩)
    (run_seq scopedRefs_eq scopedSems_eq defs main (fun _ => ops) main_eq (fun _ => ops_sub) m ρ)

end Cert.ReferenceIdeal.RefRun

end
-- ==== Proof.RefValue.lean ====
/-
  The reference's result as a function of the argument. Its gather reads, at entry (b, k), the Gram tensor at
  (b, i, j) with i and j the two words of pair k (read signed and clamped into [0, 63]); the Gram tensor's
  entry (b, i, j) is the sum over the 128 features d of x(b, i, d) · x(b, j, d); pair k is (rows k, cols k).
  So once the computed pair k is known to be (row k, col k), the result is the pairwise-interaction function
  of the specification, entry by entry.
-/
import proofs.«176202_j4166118277508_2_alg».proof.Proof.RefTerms
import proofs.«176202_j4166118277508_2_alg».proof.Proof.TrilSpec
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Terms

variable {F : FTy → Type} [FloatOps F] [Facts]
open Facts₀ Facts

/-! ## The gather at an entry -/

/-- The gather's dimension numbers. -/
abbrev gd : GatherDims S8192x64x64 S2016x2 S8192x2016 := gather_S8192x64x64_S2016x2_S8192x2016_0_12_n_n_12_1_819211

theorem gd_sim : gd.startIndexMap = [1, 2] := rfl
theorem gd_col : gd.collapsedSliceDims = [1, 2] := rfl

/-- The table index at which entry (b, k) reads component c of its pair: (k, c). -/
theorem siIdx_eq (b : Fin 8192) (k : Fin 2016) (c : Fin 2) (hc : c.val < gd.startIndexMap.length) :
    gd.siIdx (ix2 b k : S8192x2016.Idx) ⟨c.val, hc⟩ = (ix2 k c : S2016x2.Idx) := by
  funext a; refine Fin.ext ?_
  match a with
  | ⟨0, _⟩ => rfl
  | ⟨1, _⟩ => rfl

theorem gather_pairs_apply {α : Type} (x : S8192x64x64.Idx → α) (idx : IVec S2016x2 32) (b : Fin 8192) (k : Fin 2016) :
    Host.gather gd x idx (ix2 b k)
      = x (ix3 b ⟨min (idx (ix2 k (0 : Fin 2))).toInt.toNat 63, by omega⟩ ⟨min (idx (ix2 k (1 : Fin 2))).toInt.toNat 63, by omega⟩) := by
  unfold Host.gather
  congr 1
  funext a; refine Fin.ext ?_
  show gd.start (ix2 b k) idx a + gd.batchCoord (ix2 b k) a + gd.offCoord (ix2 b k) a = _
  rw [GatherDims.batchCoord_eq_zero _ _ _ List.not_mem_nil, Nat.add_zero]
  match a with
  | ⟨0, hlt⟩ =>
    have h0 : (⟨0, hlt⟩ : Fin S8192x64x64.rank) ∉ gd.startIndexMap := by rw [gd_sim]; decide +revert
    unfold GatherDims.start
    rw [dif_neg h0, Nat.zero_add]
    rfl
  | ⟨1, hlt⟩ =>
    have h1 : (⟨1, hlt⟩ : Fin S8192x64x64.rank) ∈ gd.startIndexMap := by rw [gd_sim]; exact List.mem_cons_self
    rw [GatherDims.offCoord_eq_zero _ _ _ (fun h => ((GatherDims.mem_sKept _ _).mp h).1 (by rw [gd_col]; exact List.mem_cons_self)), Nat.add_zero]
    unfold GatherDims.start
    rw [dif_pos h1]
    have hs : gd.siIdx (ix2 b k : S8192x2016.Idx) ⟨List.idxOf (⟨1, hlt⟩ : Fin S8192x64x64.rank) gd.startIndexMap, List.idxOf_lt_length_iff.2 h1⟩
        = (ix2 k (0 : Fin 2) : S2016x2.Idx) := siIdx_eq b k 0 _
    rw [hs]; rfl
  | ⟨2, hlt⟩ =>
    have h1 : (⟨2, hlt⟩ : Fin S8192x64x64.rank) ∈ gd.startIndexMap := by rw [gd_sim]; exact List.mem_cons_of_mem _ List.mem_cons_self
    rw [GatherDims.offCoord_eq_zero _ _ _ (fun h => ((GatherDims.mem_sKept _ _).mp h).1 (by rw [gd_col]; exact List.mem_cons_of_mem _ List.mem_cons_self)), Nat.add_zero]
    unfold GatherDims.start
    rw [dif_pos h1]
    have hs : gd.siIdx (ix2 b k : S8192x2016.Idx) ⟨List.idxOf (⟨2, hlt⟩ : Fin S8192x64x64.rank) gd.startIndexMap, List.idxOf_lt_length_iff.2 h1⟩
        = (ix2 k (1 : Fin 2) : S2016x2.Idx) := siIdx_eq b k 1 _
    rw [hs]; rfl

/-! ## The Gram product at an entry -/

/-- The Gram product's dimension numbers: batch on axis 0, contraction on axis 2. -/
abbrev dd : DotDims S8192x64x128 S8192x64x128 S8192x64x64 := dot_S8192x64x128_S8192x64x128_S8192x64x64_2_2_1_1_0_0

theorem dd_lc : dd.lhsContracting = [2] := rfl
theorem dd_rc : dd.rhsContracting = [2] := rfl

theorem gram_entry (x : FVec Ideal S8192x64x128 .f32) (b : Fin 8192) (i j : Fin 64) :
    Host.dotGeneral (F := Ideal) dd none x x (ix3 b i j) = ∑ d : Fin 128, x (ix3 b i d) * x (ix3 b j d) := by
  simp only [Host.dotGeneral]
  rw [Ideal.dotGeneral_apply]
  rw [← Equiv.sum_comp (contrEquiv1 dd 128 rfl rfl).symm]
  refine Finset.sum_congr rfl fun d _ => ?_
  have hl : dd.lhsIdx (ix3 b i j : S8192x64x64.Idx) ((contrEquiv1 dd 128 rfl rfl).symm d) = (ix3 b i d : S8192x64x128.Idx) := by
    funext a; refine Fin.ext ?_
    match a with
    | ⟨0, _⟩ => rfl
    | ⟨1, _⟩ => rfl
    | ⟨2, _⟩ =>
      rw [dd.lhsIdx_val_of_single (cl := ⟨2, by decide⟩) dd_lc]
      exact contrEquiv1_symm_val dd 128 rfl rfl d
  have hr : dd.rhsIdx (ix3 b i j : S8192x64x64.Idx) ((contrEquiv1 dd 128 rfl rfl).symm d) = (ix3 b j d : S8192x64x128.Idx) := by
    funext a; refine Fin.ext ?_
    match a with
    | ⟨0, _⟩ => rfl
    | ⟨1, _⟩ => rfl
    | ⟨2, _⟩ =>
      rw [dd.rhsIdx_val_of_single (cr := ⟨2, by decide⟩) dd_rc]
      exact contrEquiv1_symm_val dd 128 rfl rfl d
  rw [hl, hr]

/-! ## The pairs table at a row -/

theorem concat_col0 (u v : IVec S2016x1 32) (k : Fin 2016) :
    concatenate S2016x2 1 [⟨S2016x1, u⟩, ⟨S2016x1, v⟩] concatenates_S2016x1_S2016x1_S2016x2_d1 (ix2 k (0 : Fin 2)) = u (ix2 k (0 : Fin 1)) := by
  show u _ = u _
  congr 1
  funext b; refine Fin.ext ?_
  match b with
  | ⟨0, _⟩ => rfl
  | ⟨1, _⟩ => rfl

theorem concat_col1 (u v : IVec S2016x1 32) (k : Fin 2016) :
    concatenate S2016x2 1 [⟨S2016x1, u⟩, ⟨S2016x1, v⟩] concatenates_S2016x1_S2016x1_S2016x2_d1 (ix2 k (1 : Fin 2)) = v (ix2 k (0 : Fin 1)) := by
  show v _ = v _
  congr 1
  funext b; refine Fin.ext ?_
  match b with
  | ⟨0, _⟩ => rfl
  | ⟨1, _⟩ => rfl

theorem column_apply (w : IVec S2016 32) (k : Fin 2016) :
    broadcastInDim S2016x1 ![0] bcast_S2016_S2016x1_0 w (ix2 k (0 : Fin 1)) = w (ix1 k) := by
  show w _ = w _
  congr 1
  funext a; refine Fin.ext ?_
  match a with
  | ⟨0, _⟩ => rfl

theorem pairs_col0 (k : Fin 2016) : pairs (F := F) (ix2 k (0 : Fin 2)) = rows (F := F) (ix1 k) := by
  unfold pairs
  rw [concat_col0, column_apply]

theorem pairs_col1 (k : Fin 2016) : pairs (F := F) (ix2 k (1 : Fin 2)) = cols (F := F) (ix1 k) := by
  unfold pairs
  rw [concat_col1, column_apply]

/-! ## The result -/

/-- A word holding a number below 64 reads, as a signed integer, that number. -/
theorem toInt_toNat_small : ∀ n : Fin 64, (BitVec.ofNat 32 n.val).toInt.toNat = n.val := by decide

/-- If the computed pair of every entry k is (row k, col k), the reference's result is the pairwise-interaction
    function of its argument. -/
theorem out_eq_gram
    (hr : ∀ k : Fin 2016, rows (F := Ideal) (ix1 k) = BitVec.ofNat 32 (Cert.Tril.row k.val))
    (hc : ∀ k : Fin 2016, cols (F := Ideal) (ix1 k) = BitVec.ofNat 32 (Cert.Tril.col k.val))
    (x : FVec Ideal S8192x64x128 .f32) : Terms.out (F := Ideal) x = Cert.Tril.gram x := by
  funext q
  obtain ⟨b, k, rfl⟩ : ∃ (b : Fin 8192) (k : Fin 2016), q = ix2 b k := ⟨q 0, q 1, eq_ix2 q⟩
  unfold Terms.out
  rw [gather_pairs_apply, Cert.Tril.gram_apply]
  have h0 : min (pairs (F := Ideal) (ix2 k (0 : Fin 2))).toInt.toNat 63 = Cert.Tril.row k.val := by
    rw [pairs_col0, hr]
    have hlt := Cert.Tril.row_lt k.isLt
    have := toInt_toNat_small ⟨Cert.Tril.row k.val, hlt⟩
    simp only at this
    omega
  have h1 : min (pairs (F := Ideal) (ix2 k (1 : Fin 2))).toInt.toNat 63 = Cert.Tril.col k.val := by
    rw [pairs_col1, hc]
    have hlt := Cert.Tril.col_lt k.isLt
    have := toInt_toNat_small ⟨Cert.Tril.col k.val, hlt⟩
    simp only at this
    omega
  have e : ∀ i j : Fin 64, i.val = Cert.Tril.row k.val → j.val = Cert.Tril.col k.val →
      Host.dotGeneral (F := Ideal) dd none x x (ix3 b i j)
        = ∑ d : Fin 128, x (ix3 (n0 := 8192) (n1 := 64) (n2 := 128) b ⟨Cert.Tril.row k.val, Cert.Tril.row_lt k.isLt⟩ d)
            * x (ix3 (n0 := 8192) (n1 := 64) (n2 := 128) b ⟨Cert.Tril.col k.val, Cert.Tril.col_lt k.isLt⟩ d) := by
    intro i j hi hj
    have hi' : i = ⟨Cert.Tril.row k.val, Cert.Tril.row_lt k.isLt⟩ := Fin.ext hi
    have hj' : j = ⟨Cert.Tril.col k.val, Cert.Tril.col_lt k.isLt⟩ := Fin.ext hj
    rw [gram_entry, hi', hj']
  exact e _ _ h0 h1

end Cert.ReferenceIdeal.RefValue

end
-- ==== Proof.TrilCount.lean ====
/-
  Counting the positions of a 64 x 64 matrix that lie strictly below the diagonal. The matrix is read as a
  list of 4096 flat positions `p = 64 a + b` (row `a`, column `b`); a position is selected when `b < a`.
  `cnt p` is the number of selected positions among `0, …, p`. The number of flat positions whose count is
  at most `k` is the flat position of selected entry number `k`, that is `64 (row k) + col k`.
-/
import proofs.«176202_j4166118277508_2_alg».proof.Proof.TrilSpec

namespace Cert.Tril

open Finset

/-- 1 at a flat position below the diagonal (column < row), else 0. -/
def sel (p : ℕ) : ℕ := if p % 64 < p / 64 then 1 else 0

/-- The number of selected positions among 0, …, p. -/
def cnt (p : ℕ) : ℕ := ∑ q ∈ Finset.range (p + 1), sel q

theorem cnt_zero : cnt 0 = 0 := by
  simp [cnt, sel]

/-- One more position adds its own selection bit to the count. -/
theorem cnt_succ (p : ℕ) : cnt (p + 1) = cnt p + sel (p + 1) := by
  unfold cnt; rw [Finset.sum_range_succ]

/-- The count in terms of the row `p / 64` and the column `p % 64` of the position: the complete rows
    `a' < a` hold `a'` selected columns each (as long as `a' ≤ 64`), `tri a` in all, and row `a` itself
    holds `min (b + 1) a` selected columns among `0, …, b`. -/
theorem cnt_div_mod (p : ℕ) (hp : p / 64 ≤ 64) :
    cnt p = tri (p / 64) + min (p % 64 + 1) (p / 64) := by
  induction p with
  | zero => simp [cnt_zero, tri_zero]
  | succ p ih =>
    have ih := ih (by omega)
    rw [cnt_succ, ih]
    unfold sel
    by_cases h : p % 64 = 63
    · -- the position begins a new row: the finished row `a` held `a` selected columns
      have h1 : (p + 1) / 64 = p / 64 + 1 := by omega
      have h2 : (p + 1) % 64 = 0 := by omega
      rw [h1, h2, tri_succ, h]
      split_ifs <;> omega
    · -- the position continues the row
      have h1 : (p + 1) / 64 = p / 64 := by omega
      have h2 : (p + 1) % 64 = p % 64 + 1 := by omega
      rw [h1, h2]
      split_ifs <;> omega

theorem cnt_closed (a b : ℕ) (ha : a ≤ 64) (hb : b < 64) : cnt (64 * a + b) = tri a + min (b + 1) a := by
  have h1 : (64 * a + b) / 64 = a := by omega
  have h2 : (64 * a + b) % 64 = b := by omega
  have := cnt_div_mod (64 * a + b) (by omega)
  rwa [h1, h2] at this

theorem cnt_mono {p q : ℕ} (h : p ≤ q) : cnt p ≤ cnt q := by
  unfold cnt
  exact Finset.sum_le_sum_of_subset (Finset.range_subset_range.2 (by omega))

/-- Within row `a` the count stays at or below the offset of the next row. -/
theorem cnt_le_tri_succ (p : ℕ) (hp : p / 64 ≤ 64) : cnt p ≤ tri (p / 64 + 1) := by
  rw [cnt_div_mod p hp, tri_succ]; omega

theorem cnt_le (p : ℕ) (hp : p < 4096) : cnt p ≤ 2016 := by
  have h := cnt_le_tri_succ p (by omega)
  have h2 : tri (p / 64 + 1) ≤ tri 64 := tri_mono (by omega)
  rw [tri_64] at h2
  omega

/-- A position has count at most `tri i + j` (with `j < i ≤ 63`) exactly when it comes before the flat
    position `64 i + j` of that entry. -/
theorem cnt_le_iff {i j p : ℕ} (hi : i ≤ 63) (hj : j < i) : cnt p ≤ tri i + j ↔ p < 64 * i + j := by
  constructor
  · intro h
    by_contra hlt
    have hge : 64 * i + j ≤ p := by omega
    have := cnt_mono hge
    rw [cnt_closed i j (by omega) (by omega)] at this
    omega
  · intro h
    have ha : p / 64 ≤ i := by omega
    rcases Nat.lt_or_eq_of_le ha with hlt | heq
    · have h1 := cnt_le_tri_succ p (by omega)
      have h2 : tri (p / 64 + 1) ≤ tri i := tri_mono (by omega)
      omega
    · rw [cnt_div_mod p (by omega), heq]
      omega

/-- Sums over the members of `Fin n` up to a bound are sums over an initial range of ℕ. -/
theorem sum_fin_filter_le (n m : ℕ) (hm : m < n) (g : ℕ → ℕ) :
    ∑ q ∈ Finset.univ.filter (fun q : Fin n => q.val ≤ m), g q.val = ∑ q ∈ Finset.range (m + 1), g q := by
  rw [Finset.sum_filter, Fin.sum_univ_eq_sum_range (fun i => if i ≤ m then g i else 0) n,
    ← Finset.sum_filter]
  congr 1
  ext i
  simp only [Finset.mem_filter, Finset.mem_range]
  omega

theorem card_cnt_le (k : ℕ) (hk : k < 2016) :
    (Finset.univ.filter (fun p : Fin 4096 => cnt p.val ≤ k)).card = 64 * row k + col k := by
  obtain ⟨_, h63, _, _⟩ := row_spec hk
  have hc := col_lt_row hk
  have hlt : 64 * row k + col k < 4096 := by omega
  have heq : (Finset.univ.filter (fun p : Fin 4096 => cnt p.val ≤ k))
      = Finset.univ.filter (fun p : Fin 4096 => p.val < 64 * row k + col k) := by
    refine Finset.filter_congr fun p _ => ?_
    conv_lhs => rw [← tri_row_add_col hk]
    exact cnt_le_iff h63 hc
  rw [heq, Fin.card_filter_val_lt]
  omega

theorem sum_card_cnt_eq (k : ℕ) (hk : k < 2016) :
    ∑ k' ∈ Finset.univ.filter (fun k' : Fin 2016 => k'.val ≤ k), (Finset.univ.filter (fun p : Fin 4096 => cnt p.val = k'.val)).card
      = (Finset.univ.filter (fun p : Fin 4096 => cnt p.val ≤ k)).card := by
  rw [sum_fin_filter_le 2016 k hk (fun k' => (Finset.univ.filter (fun p : Fin 4096 => cnt p.val = k')).card)]
  -- every position counted on the right has its count among 0, …, k, so the right side splits by count
  have hmaps : ∀ p ∈ Finset.univ.filter (fun p : Fin 4096 => cnt p.val ≤ k),
      cnt p.val ∈ Finset.range (k + 1) := by
    intro p hp
    have := (Finset.mem_filter.1 hp).2
    exact Finset.mem_range.2 (by omega)
  rw [Finset.card_eq_sum_card_fiberwise hmaps]
  refine Finset.sum_congr rfl fun b hb => ?_
  have hb' := Finset.mem_range.1 hb
  rw [Finset.filter_filter]
  refine congrArg Finset.card (Finset.filter_congr fun p _ => ?_)
  omega

theorem cnt_eq_sum_fin (p : Fin 4096) :
    cnt p.val = ∑ q ∈ Finset.univ.filter (fun q : Fin 4096 => q.val ≤ p.val), sel q.val := by
  rw [sum_fin_filter_le 4096 p.val p.isLt sel]; rfl

theorem sum_sel_lt : ∑ q : Fin 4096, sel q.val < 2 ^ 32 := by
  have h : ∑ q : Fin 4096, sel q.val ≤ ∑ _q : Fin 4096, 1 :=
    Finset.sum_le_sum fun q _ => by unfold sel; split_ifs <;> omega
  simp only [Finset.sum_const, Finset.card_univ, Fintype.card_fin, smul_eq_mul, mul_one] at h
  omega

end Cert.Tril
-- ==== Proof.LibCumsum.lean ====
/-
  The running sum of a vector of 32-bit integers, as a windowed reduction.

  Take a vector `x` of length `n`, pad it with `n - 1` zeros in front, and slide a window of `n` consecutive
  positions along it one step at a time, adding up what each window sees, starting from zero. The window that ends at
  position `p` sees the `n - 1 - p` trailing zeros of the padding and then the entries `x 0, …, x p`, so its sum is the
  running sum `x 0 + ⋯ + x p`. This file proves that reading: `Host.reduceWindow` with body `IntOp.addi`, window `n`,
  stride `1`, low padding `n - 1` and no high padding, read at `p`, has as its natural-number value the sum of the
  natural-number values of the entries at positions `≤ p`, provided the sum of ALL the entries stays below `2 ^ 32`
  (so that no partial sum wraps around).

  The argument has three steps. A left fold of 32-bit additions over any list is the starting word plus the list's sum,
  taken modulo `2 ^ 32` (`foldl_addi_toNat`). The window's positions, numbered in row-major order, are the numbers
  `w = 0, …, n - 1`; position `w` of the window at `p` is padded position `p + w`, which lies in the vector exactly
  when `n - 1 ≤ p + w` and then reads entry `q = p + w - (n - 1)`. The map `w ↦ q` is a bijection from the positions
  inside the vector onto the entries `q ≤ p`, which re-indexes the one sum as the other.

  `cumsum_lo_toNat` states this with the low padding a variable `lo` with `lo + 1 = n`; `cumsum_toNat` is the same
  with the padding written `n - 1`; `cumsum4096_toNat` and `cumsum2016_toNat` are the lengths 4096 and 2016 with every
  size a numeral.
-/
import Idealize.ShloMosaic.PureOps
import Idealize.ShloMosaic.Lib.ValueIdx

open scoped BigOperators

namespace Cert.Tril.Lib

open Idealize.ShloMosaic Idealize.ShloMosaic.ValueIdx

/-- A left fold of 32-bit additions: the value of the result is the value of the starting word plus the sum of the
    values of the words added, modulo `2 ^ 32`. -/
theorem foldl_addi_toNat {ι : Type} (g : ι → BitVec 32) (L : List ι) (v : BitVec 32) :
    (L.foldl (fun r m => IntOp.addi r (g m)) v).toNat = (v.toNat + (L.map fun m => (g m).toNat).sum) % 2 ^ 32 := by
  induction L generalizing v with
  | nil => simp [Nat.mod_eq_of_lt v.isLt]
  | cons a L ih =>
    rw [List.foldl_cons, ih, List.map_cons, List.sum_cons]
    show ((v + g a).toNat + _) % 2 ^ 32 = _
    rw [BitVec.toNat_add, Nat.mod_add_mod, Nat.add_assoc]

/-- A rank-one index set is its one coordinate's range. -/
def idxEquiv1 {n : ℕ} : Fin n ≃ (⟨1, ![n]⟩ : Shape).Idx where
  toFun := ix1
  invFun j := j 0
  left_inv _ := rfl
  right_inv j := (eq_ix1 j).symm

/-- The running sum, with the low padding `lo` one less than the length `n`: the windowed sum read at `p` is the sum
    of the entries at positions `≤ p`, as natural numbers, when all the entries together stay below `2 ^ 32`. -/
theorem cumsum_lo_toNat {n lo : ℕ} (hlo : lo + 1 = n) (x : IVec ⟨1, ![n]⟩ 32) (init : IVec ⟨0, ![]⟩ 32)
    (h : (⟨1, ![n]⟩ : Shape).ReduceWindows (![n] : Fin 1 → Nat) ![1] ![lo] ![0] ⟨1, ![n]⟩)
    (hu : 0 < (⟨0, ![]⟩ : Shape).numel)
    (hinit : init ValueIdx.ix0 = 0#32) (hsum : ∑ q : Fin n, (x (ValueIdx.ix1 q)).toNat < 2 ^ 32) (p : Fin n) :
    (Host.reduceWindow IntOp.addi (![n] : Fin 1 → Nat) ![1] ![lo] ![0] x init h hu (ValueIdx.ix1 p)).toNat
      = ∑ q ∈ Finset.univ.filter (fun q : Fin n => q.val ≤ p.val), (x (ValueIdx.ix1 q)).toNat := by
  have hv : init (Shape.Idx.first hu) = 0#32 := by rw [eq_ix0 (Shape.Idx.first hu)]; exact hinit
  -- the entries as a function of a natural-number position, zero outside the vector
  let X : ℕ → ℕ := fun i => if hi : i < n then (x (ix1 ⟨i, hi⟩)).toNat else 0
  have hX : ∀ q : Fin n, (x (ix1 q)).toNat = X q.val := fun q => by
    show _ = if hi : q.val < n then (x (ix1 ⟨q.val, hi⟩)).toNat else 0
    rw [dif_pos q.isLt]
  -- the fold is zero plus the sum over the window's positions, which are the numbers below `n`
  unfold Host.reduceWindow
  simp only []
  rw [foldl_addi_toNat, hv, ← Fin.sum_univ_def, ← Equiv.sum_comp (⟨1, ![n]⟩ : Shape).rowMajor]
  simp only [Equiv.symm_apply_apply]
  rw [← Equiv.sum_comp (idxEquiv1 (n := n))]
  -- one window position `w`: it is inside the vector exactly when `lo ≤ p + w`, and then reads entry `p + w - lo`
  have hterm : ∀ w : Fin n,
      (if h_1 : ∀ (a : Fin 1),
            ![lo] a ≤ ↑(ix1 p (Fin.cast h.1.symm a)) * ![1] a + ↑(idxEquiv1 w a) ∧
              ↑(ix1 p (Fin.cast h.1.symm a)) * ![1] a + ↑(idxEquiv1 w a) - ![lo] a < ![n] a then
          x fun a => ⟨↑(ix1 p (Fin.cast h.1.symm a)) * ![1] a + ↑(idxEquiv1 w a) - ![lo] a, (h_1 a).2⟩
        else (0#32 : BitVec 32)).toNat = if lo ≤ p.val + w.val then X (p.val + w.val - lo) else 0 := by
    intro w
    by_cases hc : lo ≤ p.val + w.val
    · have h1 : ∀ (a : Fin 1),
            ![lo] a ≤ ↑(ix1 p (Fin.cast h.1.symm a)) * ![1] a + ↑(idxEquiv1 w a) ∧
              ↑(ix1 p (Fin.cast h.1.symm a)) * ![1] a + ↑(idxEquiv1 w a) - ![lo] a < ![n] a := by
        intro a
        obtain rfl : a = 0 := Subsingleton.elim _ _
        show lo ≤ p.val * 1 + w.val ∧ p.val * 1 + w.val - lo < n
        have := p.isLt; have := w.isLt
        omega
      rw [dif_pos h1, if_pos hc]
      have hlt : p.val + w.val - lo < n := by have := p.isLt; have := w.isLt; omega
      show _ = if hi : p.val + w.val - lo < n then (x (ix1 ⟨p.val + w.val - lo, hi⟩)).toNat else 0
      rw [dif_pos hlt]
      congr 2
      funext a
      obtain rfl : a = 0 := Subsingleton.elim _ _
      refine Fin.ext ?_
      show p.val * 1 + w.val - lo = p.val + w.val - lo
      rw [Nat.mul_one]
    · have h1 : ¬ ∀ (a : Fin 1),
            ![lo] a ≤ ↑(ix1 p (Fin.cast h.1.symm a)) * ![1] a + ↑(idxEquiv1 w a) ∧
              ↑(ix1 p (Fin.cast h.1.symm a)) * ![1] a + ↑(idxEquiv1 w a) - ![lo] a < ![n] a := by
        intro hh
        have h0 := (hh 0).1
        change lo ≤ p.val * 1 + w.val at h0
        omega
      rw [dif_neg h1, if_neg hc]
      rfl
  rw [Finset.sum_congr rfl (fun w _ => hterm w)]
  show (0 + _) % 2 ^ 32 = _
  rw [Nat.zero_add]
  -- re-index the window position `w` by the entry `q = p + w - lo` it reads
  have hre : (∑ w : Fin n, if lo ≤ p.val + w.val then X (p.val + w.val - lo) else 0)
      = ∑ q ∈ Finset.univ.filter (fun q : Fin n => q.val ≤ p.val), (x (ix1 q)).toNat := by
    rw [Finset.sum_congr rfl (fun q _ => hX q), Finset.sum_filter,
      Fin.sum_univ_eq_sum_range (fun w => if lo ≤ p.val + w then X (p.val + w - lo) else 0) n,
      Fin.sum_univ_eq_sum_range (fun q => if q ≤ p.val then X q else 0) n,
      ← Finset.sum_filter, ← Finset.sum_filter]
    have hp := p.isLt
    refine Finset.sum_nbij' (fun w => p.val + w - lo) (fun q => q + lo - p.val) ?_ ?_ ?_ ?_ ?_
    · intro w hw
      rw [Finset.mem_filter, Finset.mem_range] at hw ⊢
      omega
    · intro q hq
      rw [Finset.mem_filter, Finset.mem_range] at hq ⊢
      omega
    · intro w hw
      rw [Finset.mem_filter, Finset.mem_range] at hw
      show p.val + w - lo + lo - p.val = w
      omega
    · intro q hq
      rw [Finset.mem_filter, Finset.mem_range] at hq
      show p.val + (q + lo - p.val) - lo = q
      omega
    · intro w _
      rfl
  rw [hre]
  -- a part of the entries sums to at most all of them, so nothing wraps around
  exact Nat.mod_eq_of_lt (lt_of_le_of_lt (Finset.sum_le_sum_of_subset (Finset.filter_subset _ _)) hsum)

/-- The running sum of a vector of length `n`, the low padding written `n - 1`. -/
theorem cumsum_toNat {n : ℕ} (x : IVec ⟨1, ![n]⟩ 32) (init : IVec ⟨0, ![]⟩ 32)
    (h : (⟨1, ![n]⟩ : Shape).ReduceWindows (![n] : Fin 1 → Nat) ![1] ![n - 1] ![0] ⟨1, ![n]⟩)
    (hu : 0 < (⟨0, ![]⟩ : Shape).numel)
    (hinit : init ValueIdx.ix0 = 0#32) (hsum : ∑ q : Fin n, (x (ValueIdx.ix1 q)).toNat < 2 ^ 32) (p : Fin n) :
    (Host.reduceWindow IntOp.addi (![n] : Fin 1 → Nat) ![1] ![n - 1] ![0] x init h hu (ValueIdx.ix1 p)).toNat
      = ∑ q ∈ Finset.univ.filter (fun q : Fin n => q.val ≤ p.val), (x (ValueIdx.ix1 q)).toNat :=
  cumsum_lo_toNat (Nat.sub_add_cancel (Nat.lt_of_le_of_lt (Nat.zero_le _) p.isLt)) x init h hu hinit hsum p

/-- The running sum of a vector of length 4096, every size a numeral. -/
theorem cumsum4096_toNat (x : IVec ⟨1, ![4096]⟩ 32) (init : IVec ⟨0, ![]⟩ 32)
    (h : (⟨1, ![4096]⟩ : Shape).ReduceWindows (![4096] : Fin 1 → Nat) ![1] ![4095] ![0] ⟨1, ![4096]⟩)
    (hu : 0 < (⟨0, ![]⟩ : Shape).numel)
    (hinit : init ValueIdx.ix0 = 0#32) (hsum : ∑ q : Fin 4096, (x (ValueIdx.ix1 q)).toNat < 2 ^ 32) (p : Fin 4096) :
    (Host.reduceWindow IntOp.addi (![4096] : Fin 1 → Nat) ![1] ![4095] ![0] x init h hu (ValueIdx.ix1 p)).toNat
      = ∑ q ∈ Finset.univ.filter (fun q : Fin 4096 => q.val ≤ p.val), (x (ValueIdx.ix1 q)).toNat :=
  cumsum_lo_toNat (n := 4096) (lo := 4095) (by norm_num) x init h hu hinit hsum p

/-- The running sum of a vector of length 2016, every size a numeral. -/
theorem cumsum2016_toNat (x : IVec ⟨1, ![2016]⟩ 32) (init : IVec ⟨0, ![]⟩ 32)
    (h : (⟨1, ![2016]⟩ : Shape).ReduceWindows (![2016] : Fin 1 → Nat) ![1] ![2015] ![0] ⟨1, ![2016]⟩)
    (hu : 0 < (⟨0, ![]⟩ : Shape).numel)
    (hinit : init ValueIdx.ix0 = 0#32) (hsum : ∑ q : Fin 2016, (x (ValueIdx.ix1 q)).toNat < 2 ^ 32) (p : Fin 2016) :
    (Host.reduceWindow IntOp.addi (![2016] : Fin 1 → Nat) ![1] ![2015] ![0] x init h hu (ValueIdx.ix1 p)).toNat
      = ∑ q ∈ Finset.univ.filter (fun q : Fin 2016 => q.val ≤ p.val), (x (ValueIdx.ix1 q)).toNat :=
  cumsum_lo_toNat (n := 2016) (lo := 2015) (by norm_num) x init h hu hinit hsum p

end Cert.Tril.Lib
-- ==== Proof.LibScatterCount.lean ====
/-
  A scatter-add of ones is a count.

  Start from a table of `n` zeros (32-bit words). There are `m` update positions; position `p` carries an index word
  `idx[p, 0]`, read as a signed integer, and the update value `1`. The scatter visits the positions in order and, at
  each, adds the update into the table entry named by the index word — or does nothing when that word is outside
  `[0, n)`. Afterwards entry `k` holds the number of positions whose index word is `k`.

  This file proves that reading of `Host.scatter` with body `IntOp.addi`, for the dimension numbers of a scatter of
  scalars along one axis (no update window axes; the operand's single axis both inserted and the one the index vector
  names; the index vector along the indices' second axis, which has length one), under the hypothesis that every index
  word is non-negative as a signed integer (its value is below `2 ^ 31`), so that its signed value is its value.

  Three steps. First, for these dimension numbers the entry an update lands at is computed from the single index word
  (`resultIdx?_eq`); the dimension numbers are a variable, used only through the four equations on their fields.
  Second, a fold of "add a word to one entry, or skip" over ANY list of positions leaves at entry `k` its starting
  value plus the sum of the words added by the positions that hit `k`, modulo `2 ^ 32` (`foldl_scatter_addi_toNat`, by
  induction on the list). Third, with all the words `1` and the starting table zero, that sum is the number of positions
  hitting `k`, which is at most `m < 2 ^ 32`, so nothing wraps around.

  `scatterCount_gen_toNat` is the statement for any lengths `n` and `m < 2 ^ 32`; `scatterCount_toNat` is the table
  of length 2016 with 4096 updates, every size a numeral.
-/
import Idealize.ShloMosaic.PureOps
import Idealize.ShloMosaic.Lib.ValueIdx

open scoped BigOperators

namespace Cert.Tril.Lib

open Idealize.ShloMosaic Idealize.ShloMosaic.ValueIdx

/-- A left fold of steps each of which either adds the word `g n` to ONE entry `R n` of a table of 32-bit words or, when
    `R n` is `none`, leaves the table alone: the value of entry `k` of the result is the value of entry `k` at the start
    plus the sum of the values of the words `g n` over the steps `n` that hit `k`, modulo `2 ^ 32`. The step is a
    parameter, described by its two cases. -/
theorem foldl_scatter_addi_toNat {ι κ : Type} [DecidableEq κ] (R : ι → Option κ) (g : ι → BitVec 32)
    (step : (κ → BitVec 32) → ι → (κ → BitVec 32))
    (hsome : ∀ r n i, R n = some i → step r n = fun i' => if i' = i then IntOp.addi (r i) (g n) else r i')
    (hnone : ∀ r n, R n = none → step r n = r)
    (L : List ι) (x : κ → BitVec 32) (k : κ) :
    (L.foldl step x k).toNat
      = ((x k).toNat + (L.map fun n => if R n = some k then (g n).toNat else 0).sum) % 2 ^ 32 := by
  induction L generalizing x with
  | nil => simp [Nat.mod_eq_of_lt (x k).isLt]
  | cons a L ih =>
    rw [List.foldl_cons, ih, List.map_cons, List.sum_cons]
    cases hR : R a with
    | none =>
      rw [hnone x a hR, if_neg (by simp), Nat.zero_add]
    | some i =>
      rw [hsome x a i hR]
      beta_reduce
      by_cases hk : k = i
      · subst hk
        rw [if_pos rfl, if_pos rfl]
        show ((x k + g a).toNat + _) % 2 ^ 32 = _
        rw [BitVec.toNat_add, Nat.mod_add_mod, Nat.add_assoc]
      · rw [if_neg hk, if_neg (fun h => hk (Option.some.inj h).symm), Nat.zero_add]

/-- Where update position `p` lands, for the dimension numbers of a one-axis scatter of scalars (no window axes, the
    operand's one axis inserted and named by the index vector, which lies along the indices' second axis): at the entry
    whose number is the index word `idx[p, 0]` read as a signed integer, when that is in `[0, n)`; nowhere otherwise. -/
theorem resultIdx?_eq {n m : ℕ} (d : ScatterDims ⟨1, ![n]⟩ ⟨2, ![m, 1]⟩ ⟨1, ![m]⟩)
    (hd1 : d.updateWindowDims = []) (hd2 : d.insertedWindowDims = [0]) (hd3 : d.scatterDimsToOperandDims = [0])
    (hd4 : d.indexVectorDim = 1) (idx : IVec ⟨2, ![m, 1]⟩ 32) (p : Fin m) :
    d.resultIdx? (ix1 p) idx
      = if h : 0 ≤ (idx (ix2 p (0 : Fin 1))).toInt ∧ (idx (ix2 p (0 : Fin 1))).toInt < (n : ℤ) then
          some (ix1 ⟨(idx (ix2 p (0 : Fin 1))).toInt.toNat, by omega⟩)
        else none := by
  obtain ⟨uw, iw, sd, iv, wf⟩ := d
  simp only at hd1 hd2 hd3 hd4
  subst hd1 hd2 hd3 hd4
  -- the start on the operand's axis is the index word at `(p, 0)`; the window coordinate there is zero
  set d : ScatterDims ⟨1, ![n]⟩ ⟨2, ![m, 1]⟩ ⟨1, ![m]⟩ :=
    { updateWindowDims := [], insertedWindowDims := [0], scatterDimsToOperandDims := [0], indexVectorDim := 1, wf := wf } with hd
  have hstart : d.start (ix1 p) idx 0 = (idx (ix2 p (0 : Fin 1))).toInt := by
    unfold ScatterDims.start
    rw [dif_pos (show (0 : Fin 1) ∈ d.scatterDimsToOperandDims from List.mem_singleton.mpr rfl)]
    congr 1
    congr 1
    funext b
    refine Fin.ext ?_
    match b with
    | ⟨0, _⟩ => rfl
    | ⟨1, _⟩ => rfl
  have hwin : d.window (ix1 p) 0 = 0 := by
    unfold ScatterDims.window
    rw [dif_neg]
    show (0 : Fin 1) ∉ (List.finRange 1).filter (fun a => a ∉ [(0 : Fin 1)])
    decide
  unfold ScatterDims.resultIdx?
  by_cases hc : 0 ≤ (idx (ix2 p (0 : Fin 1))).toInt ∧ (idx (ix2 p (0 : Fin 1))).toInt < (n : ℤ)
  · have h1 : ∀ a : Fin 1, 0 ≤ d.start (ix1 p) idx a + d.window (ix1 p) a ∧
        d.start (ix1 p) idx a + d.window (ix1 p) a < ((⟨1, ![n]⟩ : Shape).size a : ℤ) := by
      intro a
      obtain rfl : a = 0 := Subsingleton.elim _ _
      rw [hstart, hwin]
      show 0 ≤ _ + ((0 : ℕ) : ℤ) ∧ _ + ((0 : ℕ) : ℤ) < (n : ℤ)
      rw [Nat.cast_zero, add_zero]
      exact hc
    rw [dif_pos h1, dif_pos hc]
    congr 1
    funext a
    obtain rfl : a = 0 := Subsingleton.elim _ _
    refine Fin.ext ?_
    show (d.start (ix1 p) idx 0 + d.window (ix1 p) 0).toNat = _
    rw [hstart, hwin, Nat.cast_zero, add_zero]
    rfl
  · have h1 : ¬ ∀ a : Fin 1, 0 ≤ d.start (ix1 p) idx a + d.window (ix1 p) a ∧
        d.start (ix1 p) idx a + d.window (ix1 p) a < ((⟨1, ![n]⟩ : Shape).size a : ℤ) := by
      intro hh
      have h0 := hh 0
      rw [hstart, hwin] at h0
      change 0 ≤ _ + ((0 : ℕ) : ℤ) ∧ _ + ((0 : ℕ) : ℤ) < (n : ℤ) at h0
      rw [Nat.cast_zero, add_zero] at h0
      exact hc h0
    rw [dif_neg h1, dif_neg hc]

/-- A rank-one index set is its one coordinate's range. -/
private def posEquiv {n : ℕ} : Fin n ≃ (⟨1, ![n]⟩ : Shape).Idx where
  toFun := ix1
  invFun j := j 0
  left_inv _ := rfl
  right_inv j := (eq_ix1 j).symm

/-- Scattering ones counts: `m` updates, all the word `1`, added into a table of `n` zeros at the entries named by the
    index words (each non-negative as a signed integer); entry `k` of the result is the number of updates whose index
    word is `k`. The count is at most `m < 2 ^ 32`, so it does not wrap around. -/
theorem scatterCount_gen_toNat {n m : ℕ} (hm : m < 2 ^ 32) (d : ScatterDims ⟨1, ![n]⟩ ⟨2, ![m, 1]⟩ ⟨1, ![m]⟩)
    (hd1 : d.updateWindowDims = []) (hd2 : d.insertedWindowDims = [0]) (hd3 : d.scatterDimsToOperandDims = [0])
    (hd4 : d.indexVectorDim = 1)
    (x : IVec ⟨1, ![n]⟩ 32) (idx : IVec ⟨2, ![m, 1]⟩ 32) (upd : IVec ⟨1, ![m]⟩ 32)
    (hx : ∀ k, x k = 0#32) (hupd : ∀ p, upd p = 1#32)
    (hidx : ∀ p : Fin m, (idx (ValueIdx.ix2 p (0 : Fin 1))).toNat < 2 ^ 31) (k : Fin n) :
    (Host.scatter d IntOp.addi x idx upd (ValueIdx.ix1 k)).toNat
      = (Finset.univ.filter (fun p : Fin m => (idx (ValueIdx.ix2 p (0 : Fin 1))).toNat = k.val)).card := by
  -- the scatter is the fold of the lemma above, over the update positions in row-major order
  unfold Host.scatter
  refine (foldl_scatter_addi_toNat
    (R := fun nn => d.resultIdx? ((⟨1, ![m]⟩ : Shape).rowMajor.symm nn) idx)
    (g := fun nn => upd ((⟨1, ![m]⟩ : Shape).rowMajor.symm nn)) _ ?_ ?_ _ x (ix1 k)).trans ?_
  · intro r nn i h
    simp only [h]
  · intro r nn h
    simp only [h]
  -- the fold's sum runs over the numbers below `m`, which are the update positions
  rw [hx, ← Fin.sum_univ_def, ← Equiv.sum_comp (⟨1, ![m]⟩ : Shape).rowMajor]
  simp only [Equiv.symm_apply_apply]
  rw [← Equiv.sum_comp (posEquiv (n := m))]
  -- one update: it hits entry `k` exactly when its index word is `k`, and then adds one
  have hterm : ∀ p : Fin m,
      (if d.resultIdx? (posEquiv p) idx = some (ix1 k) then (upd (posEquiv p)).toNat else 0)
        = if (idx (ix2 p (0 : Fin 1))).toNat = k.val then 1 else 0 := by
    intro p
    show (if d.resultIdx? (ix1 p) idx = some (ix1 k) then (upd (ix1 p)).toNat else 0) = _
    rw [resultIdx?_eq d hd1 hd2 hd3 hd4 idx p, hupd]
    have hI : (idx (ix2 p (0 : Fin 1))).toInt = ((idx (ix2 p (0 : Fin 1))).toNat : ℤ) :=
      BitVec.toInt_eq_toNat_of_lt (by have := hidx p; omega)
    have hk := k.isLt
    by_cases hlt : (idx (ix2 p (0 : Fin 1))).toNat < n
    · rw [dif_pos ⟨by omega, by omega⟩]
      by_cases he : (idx (ix2 p (0 : Fin 1))).toNat = k.val
      · rw [if_pos he, if_pos]
        · rfl
        · have : (⟨(idx (ix2 p (0 : Fin 1))).toInt.toNat, by omega⟩ : Fin n) = k := Fin.ext (by show (idx (ix2 p (0 : Fin 1))).toInt.toNat = k.val; omega)
          rw [this]
      · rw [if_neg he, if_neg]
        intro hs
        have h0 := congrArg Fin.val (congrFun (Option.some.inj hs) 0)
        change (idx (ix2 p (0 : Fin 1))).toInt.toNat = k.val at h0
        omega
    · rw [dif_neg (by omega), if_neg (by simp), if_neg (by omega)]
  rw [Finset.sum_congr rfl (fun p _ => hterm p), ← Finset.card_filter]
  show (0 + _) % 2 ^ 32 = _
  rw [Nat.zero_add]
  refine Nat.mod_eq_of_lt (lt_of_le_of_lt (Finset.card_filter_le _ _) ?_)
  rw [Finset.card_univ, Fintype.card_fin]
  exact hm

/-- Scattering 4096 ones into a table of 2016 zeros counts, at entry `k`, the updates whose index word is `k`. -/
theorem scatterCount_toNat (d : ScatterDims ⟨1, ![2016]⟩ ⟨2, ![4096, 1]⟩ ⟨1, ![4096]⟩)
    (hd1 : d.updateWindowDims = []) (hd2 : d.insertedWindowDims = [0]) (hd3 : d.scatterDimsToOperandDims = [0])
    (hd4 : d.indexVectorDim = 1)
    (x : IVec ⟨1, ![2016]⟩ 32) (idx : IVec ⟨2, ![4096, 1]⟩ 32) (upd : IVec ⟨1, ![4096]⟩ 32)
    (hx : ∀ k, x k = 0#32) (hupd : ∀ p, upd p = 1#32)
    (hidx : ∀ p : Fin 4096, (idx (ValueIdx.ix2 p (0 : Fin 1))).toNat < 2 ^ 31) (k : Fin 2016) :
    (Host.scatter d IntOp.addi x idx upd (ValueIdx.ix1 k)).toNat
      = (Finset.univ.filter (fun p : Fin 4096 => (idx (ValueIdx.ix2 p (0 : Fin 1))).toNat = k.val)).card :=
  scatterCount_gen_toNat (n := 2016) (m := 4096) (by norm_num) d hd1 hd2 hd3 hd4 x idx upd hx hupd hidx k

end Cert.Tril.Lib
-- ==== Proof.IdxWords.lean ====
/-
  The reference spells a division rounding down, a remainder of the divisor's sign, a clip at zero and a
  wrap of negative numbers with comparisons, signs and selections on 32-bit words. On words that are not
  negative as signed integers all of these are what they are on natural numbers: the quotient and remainder
  by 64 are ℕ's, the clip and the wraps change nothing. The 64 x 64 mask, flattened, is 1 exactly at the flat
  positions whose column is below their row.
-/
import proofs.«176202_j4166118277508_2_alg».proof.Proof.RefTerms
import proofs.«176202_j4166118277508_2_alg».proof.Proof.TrilCount
import Idealize.ShloMosaic.Lib.ValueIdx
import Idealize.ShloMosaic.PureOps.Ideal.Laws
import Idealize.ShloMosaic.Lib.IdealHost
import Idealize.ShloMosaic.Lib.Pipeline.Value

namespace Cert.Tril.Words

open Idealize.ShloMosaic Idealize.ShloMosaic.ValueIdx Cert.ReferenceIdeal Cert.ReferenceIdeal.Terms

/-! ## Facts about single words -/

section Word

/-- A word below 2³¹ has its sign bit clear. -/
theorem msb_false_of_lt {x : BitVec 32} (h : x.toNat < 2 ^ 31) : x.msb = false :=
  BitVec.msb_eq_false_iff_two_mul_lt.2 (by omega)

/-- Division by 64 is not one of signed division's two corner cases (divisor 0; least integer by −1). -/
theorem not_corner_64 (x : BitVec 32) : ¬ IntOp.SDivCorner x 64#32 := by
  rintro (h | ⟨_, h⟩) <;> exact absurd h (by decide)

/-- Nor is division by 1. -/
theorem not_corner_1 (x : BitVec 32) : ¬ IntOp.SDivCorner x 1#32 := by
  rintro (h | ⟨_, h⟩) <;> exact absurd h (by decide)

/-- The truncating quotient by 64 of a word that is not negative is the quotient of natural numbers. -/
theorem divsi_host_64 (x : BitVec 32) (h : x.toNat < 2 ^ 31) :
    IntOp.divsi .host x 64#32 = BitVec.ofNat 32 (x.toNat / 64) := by
  unfold IntOp.divsi
  rw [if_neg (not_corner_64 x), BitVec.sdiv_eq, msb_false_of_lt h, show (64#32 : BitVec 32).msb = false from by decide]
  apply BitVec.eq_of_toNat_eq
  simp only [BitVec.udiv_eq, BitVec.toNat_udiv, BitVec.toNat_ofNat, Nat.reducePow, Nat.reduceMod]
  omega

/-- The truncating remainder by 64 of a word that is not negative is the remainder of natural numbers. -/
theorem remsi_host_64 (x : BitVec 32) (h : x.toNat < 2 ^ 31) :
    IntOp.remsi .host x 64#32 = BitVec.ofNat 32 (x.toNat % 64) := by
  unfold IntOp.remsi
  rw [if_neg (not_corner_64 x), BitVec.srem_eq, msb_false_of_lt h, show (64#32 : BitVec 32).msb = false from by decide]
  apply BitVec.eq_of_toNat_eq
  simp only [BitVec.umod_eq, BitVec.toNat_umod, BitVec.toNat_ofNat, Nat.reducePow, Nat.reduceMod]
  omega

/-- The quotient by 1 is the word itself. -/
theorem divsi_host_1 (x : BitVec 32) (h : x.toNat < 2 ^ 31) : IntOp.divsi .host x 1#32 = x := by
  unfold IntOp.divsi
  rw [if_neg (not_corner_1 x), BitVec.sdiv_eq, msb_false_of_lt h, show (1#32 : BitVec 32).msb = false from by decide]
  apply BitVec.eq_of_toNat_eq
  simp only [BitVec.udiv_eq, BitVec.toNat_udiv, BitVec.toNat_ofNat, Nat.reducePow, Nat.reduceMod]
  omega

/-- The remainder by 1 is zero. -/
theorem remsi_host_1 (x : BitVec 32) (h : x.toNat < 2 ^ 31) : IntOp.remsi .host x 1#32 = 0#32 := by
  unfold IntOp.remsi
  rw [if_neg (not_corner_1 x), BitVec.srem_eq, msb_false_of_lt h, show (1#32 : BitVec 32).msb = false from by decide]
  apply BitVec.eq_of_toNat_eq
  simp only [BitVec.umod_eq, BitVec.toNat_umod, BitVec.toNat_ofNat, Nat.reducePow, Nat.reduceMod]
  omega

/-- A word that is not negative is not below zero in the signed order. -/
theorem cmpi_slt_zero (x : BitVec 32) (h : x.toNat < 2 ^ 31) : IntOp.cmpi .slt x 0#32 = 0#1 := by
  unfold IntOp.cmpi
  simp only [BitVec.slt_zero_eq_msb, msb_false_of_lt h]
  rfl

/-- The sign of a word as a signed integer: 0, −1 or 1. -/
def sg (x : BitVec 32) : BitVec 32 := if x = 0 then 0 else if x.msb then -1 else 1

/-- A conjunction whose first conjunct is false is false. -/
theorem andi_zero_left (c : BitVec 1) : IntOp.andi 0#1 c = 0#1 := by
  unfold IntOp.andi; exact BitVec.zero_and

/-- The rounding-down correction does not apply to a word that is not negative divided by a positive divisor
    `y`: either the word is zero, and then the remainder is zero, or the two signs are both 1. -/
theorem floor_test (x y : BitVec 32) (h : x.toNat < 2 ^ 31) (hy : sg y = 1#32)
    (h0 : IntOp.remsi .host 0 y = 0#32) :
    IntOp.andi (IntOp.cmpi .ne (sg x) (sg y)) (IntOp.cmpi .ne (IntOp.remsi .host x y) 0#32) = 0#1 := by
  by_cases hx : x = 0
  · subst hx
    rw [h0, show IntOp.cmpi .ne (0#32) 0#32 = 0#1 from by decide]
    unfold IntOp.andi; exact BitVec.and_zero
  · have hs : sg x = 1#32 := by unfold sg; rw [if_neg hx, msb_false_of_lt h]; rfl
    rw [hs, hy, show IntOp.cmpi .ne (1#32) 1#32 = 0#1 from by decide]
    exact andi_zero_left _

/-- Division rounding down by 64, on a word that is not negative, is the quotient of natural numbers. -/
theorem floorDiv_word_64 (x : BitVec 32) (h : x.toNat < 2 ^ 31) :
    Scalar.select (IntOp.andi (IntOp.cmpi .ne (sg x) (sg 64#32)) (IntOp.cmpi .ne (IntOp.remsi .host x 64#32) 0#32))
        (IntOp.subi (IntOp.divsi .host x 64#32) 1#32) (IntOp.divsi .host x 64#32)
      = BitVec.ofNat 32 (x.toNat / 64) := by
  rw [floor_test x 64#32 h (by decide) (by decide), select_zero, divsi_host_64 x h]

/-- Division rounding down by 1, on a word that is not negative, is the word. -/
theorem floorDiv_word_1 (x : BitVec 32) (h : x.toNat < 2 ^ 31) :
    Scalar.select (IntOp.andi (IntOp.cmpi .ne (sg x) (sg 1#32)) (IntOp.cmpi .ne (IntOp.remsi .host x 1#32) 0#32))
        (IntOp.subi (IntOp.divsi .host x 1#32) 1#32) (IntOp.divsi .host x 1#32)
      = x := by
  rw [floor_test x 1#32 h (by decide) (by decide), select_zero, divsi_host_1 x h]

/-- The remainder of the divisor's sign by 64, on a word that is not negative, is the remainder of natural
    numbers: the truncating remainder is not negative, as 64 is not, so nothing is added. -/
theorem remainder_word_64 (x : BitVec 32) (h : x.toNat < 2 ^ 31) :
    Scalar.select
        (IntOp.andi (IntOp.cmpi .ne (IntOp.cmpi .slt (IntOp.remsi .host x 64#32) 0#32) (IntOp.cmpi .slt 64#32 0#32))
          (IntOp.cmpi .ne (IntOp.remsi .host x 64#32) 0#32))
        (IntOp.addi (IntOp.remsi .host x 64#32) 64#32) (IntOp.remsi .host x 64#32)
      = BitVec.ofNat 32 (x.toNat % 64) := by
  rw [remsi_host_64 x h]
  have hr : (BitVec.ofNat 32 (x.toNat % 64)).toNat < 2 ^ 31 := by
    simp only [BitVec.toNat_ofNat, Nat.reducePow]; omega
  rw [cmpi_slt_zero _ hr, show IntOp.cmpi .slt (64#32) 0#32 = 0#1 from by decide,
    show IntOp.cmpi .ne (0#1) 0#1 = 0#1 from by decide, andi_zero_left, select_zero]

/-- The wrap of negative numbers leaves a word that is not negative alone. -/
theorem wrap_word (x k : BitVec 32) (h : x.toNat < 2 ^ 31) :
    Scalar.select (IntOp.cmpi .slt x 0#32) (IntOp.addi x k) x = x := by
  rw [cmpi_slt_zero x h, select_zero]

/-- The larger of zero and a word that is not negative, in the signed order, is the word. -/
theorem maxsi_zero (x : BitVec 32) (h : x.toNat < 2 ^ 31) : IntOp.maxsi 0#32 x = x := by
  unfold IntOp.maxsi
  rw [BitVec.slt_zero_eq_msb, msb_false_of_lt h]
  rfl

end Word

variable [Cert.ReferenceIdeal.Facts]

/-! ## The reference's terms on words that are not negative -/

theorem floorDiv_64 (a : IVec S2016 32) (i : S2016.Idx) (h : (a i).toNat < 2 ^ 31) :
    floorDiv a (constantI S_ 32 64#32) i = BitVec.ofNat 32 ((a i).toNat / 64) :=
  floorDiv_word_64 (a i) h

theorem floorDiv_1 (a : IVec S2016 32) (i : S2016.Idx) (h : (a i).toNat < 2 ^ 31) :
    floorDiv a (constantI S_ 32 1#32) i = a i :=
  floorDiv_word_1 (a i) h

/-- The divisor 64 is not zero, so it is kept. -/
theorem divisor_64 : divisor (constantI S_ 32 64#32) = constantI S_ 32 64#32 := by
  funext j
  show Scalar.select (IntOp.cmpi .eq 64#32 0#32) 1#32 64#32 = 64#32
  decide

theorem remainder_64 (a : IVec S2016 32) (i : S2016.Idx) (h : (a i).toNat < 2 ^ 31) :
    remainder a (constantI S_ 32 64#32) i = BitVec.ofNat 32 ((a i).toNat % 64) := by
  unfold remainder
  rw [divisor_64]
  exact remainder_word_64 (a i) h

theorem wrap64_of_nonneg (v : IVec S2016 32) (i : S2016.Idx) (h : (v i).toNat < 2 ^ 31) : wrap64 v i = v i :=
  wrap_word (v i) 64#32 h

theorem clipped_eq (p : S4096.Idx) (h : (running (F := Ideal) p).toNat < 2 ^ 31) :
    clipped (F := Ideal) p = running (F := Ideal) p :=
  maxsi_zero (running (F := Ideal) p) h

theorem wrapped_eq (p : S4096.Idx) (h : (running (F := Ideal) p).toNat < 2 ^ 31) :
    wrapped (F := Ideal) p = running (F := Ideal) p := by
  have hc := clipped_eq p h
  show Scalar.select (IntOp.cmpi .slt (clipped (F := Ideal) p) 0#32) (IntOp.addi (clipped (F := Ideal) p) 2016#32)
    (clipped (F := Ideal) p) = _
  rw [hc]
  exact wrap_word _ _ h

/-! ## The flattened mask -/

/-- The cell test on words: for row and column numbers below 64, "row − 1 ≥ column" in the signed order says
    that the column is below the row (row 0 gives −1, below every column). There are 64 · 64 cases, each
    settled by evaluating the words. -/
theorem below_word_fin : ∀ a b : Fin 64,
    IntOp.cmpi .sge (IntOp.addi (BitVec.ofNat 32 a.val) 4294967295#32) (BitVec.ofNat 32 b.val)
      = if b.val < a.val then 1#1 else 0#1 := by decide +kernel

theorem below_word (a b : ℕ) (ha : a < 64) (hb : b < 64) :
    IntOp.cmpi .sge (IntOp.addi (BitVec.ofNat 32 a) 4294967295#32) (BitVec.ofNat 32 b)
      = if b < a then 1#1 else 0#1 := below_word_fin ⟨a, ha⟩ ⟨b, hb⟩

/-- One is not zero; zero is zero. -/
theorem cmp_une_one_zero : Ideal.cmp .une (1 : EReal) 0 = 1#1 := by
  unfold Ideal.cmp; simp

theorem cmp_une_zero_zero : Ideal.cmp .une (0 : EReal) 0 = 0#1 := by
  unfold Ideal.cmp; simp

/-- The cell test of the mask at the cell in row `a`, column `b`. -/
theorem below_at (a b : ℕ) (ha : a < 64) (hb : b < 64) :
    below (ix2 (⟨a, ha⟩ : Fin 64) (⟨b, hb⟩ : Fin 64))
      = IntOp.cmpi .sge (IntOp.addi (BitVec.ofNat 32 a) 4294967295#32) (BitVec.ofNat 32 b) := rfl

/-- The triangle of ones at a cell: 1.0 or 0.0 by the cell test. -/
theorem lower_at (j : S64x64.Idx) :
    lower (F := Ideal) j
      = Scalar.select (below j) (Ideal.ofBits .f32 0x3F800000#32) (Ideal.ofBits .f32 0x00000000#32) := rfl

/-- The mask at a cell: whether the triangle's entry differs from 0.0. -/
theorem mask_at (j : S64x64.Idx) :
    mask (F := Ideal) j = Ideal.cmp .une (lower (F := Ideal) j) (Ideal.ofBits .f32 0x00000000#32) := by
  unfold mask
  rw [cmpf_apply, Ideal.cmpf_def]
  exact congrArg (Ideal.cmp .une (lower (F := Ideal) j)) rfl

/-- The flattened mask at a position: the reshaped mask's bit as a 32-bit word. -/
theorem flat_at (q : S4096.Idx) :
    flat (F := Ideal) q
      = (shapeCast S4096 (mask (F := Ideal)) Facts₀.shapeCasts_S64x64_S4096 q).setWidth 32 := rfl

theorem flat_toNat (p : Fin 4096) : (flat (F := Ideal) (ix1 p)).toNat = Cert.Tril.sel p.val := by
  have ha : p.val / 64 < 64 := by omega
  have hb : p.val % 64 < 64 := by omega
  -- flat position p is the cell in row p / 64, column p % 64
  have hcast : shapeCast S4096 (mask (F := Ideal)) Facts₀.shapeCasts_S64x64_S4096 (ix1 p)
      = mask (F := Ideal) (ix2 (⟨p.val / 64, ha⟩ : Fin 64) (⟨p.val % 64, hb⟩ : Fin 64)) :=
    shapeCast_apply _ _ _ _ (by
      rw [Shape.rowMajor_val_two, Shape.rowMajor_val_one]
      show p.val / 64 * 64 + p.val % 64 = p.val
      omega)
  -- the mask there: 1.0 or 0.0 by the cell test, compared with 0.0
  rw [flat_at, hcast, mask_at, lower_at, below_at, below_word _ _ ha hb, Ideal.ofBits_one_f32, Ideal.ofBits_zero_f32]
  unfold Cert.Tril.sel
  by_cases h : p.val % 64 < p.val / 64
  · rw [if_pos h, if_pos h, select_one, cmp_une_one_zero, show (BitVec.setWidth 32 (1#1 : BitVec 1)).toNat = 1 from by decide]
  · rw [if_neg h, if_neg h, select_zero, cmp_une_zero_zero, show (BitVec.setWidth 32 (0#1 : BitVec 1)).toNat = 0 from by decide]

end Cert.Tril.Words
-- ==== Proof.RefIndex.lean ====
/-
  The index pairs the reference computes are the rows and columns of the strictly-lower-triangular entries.

  The reference finds the pairs the way a "positions of the non-zeros" routine does. It flattens the 64 x 64
  mask "column below row" to 4096 positions and takes its running count, `cnt p` at position `p`. It then
  tallies, for each count value `k`, how many positions have that running count, by adding a one into bin
  `cnt p` for every position `p`; and it takes the running sum of the tallies. The running sum at `k` is the
  number of positions whose running count is at most `k` — and since the running count first exceeds `k` at the
  selected position number `k`, that number IS the flat position of selected entry `k`, namely
  `64 (row k) + col k`. Dividing by 64 and reducing modulo 64 gives `row k`; reducing modulo 64 gives `col k`.

  Each step is one theorem: `running_toNat` (the running count is `cnt`; it is a running sum of bits that never
  wraps around), `wrapped_toNat` (the clip at zero and the from-the-end correction do nothing to a count between 0
  and 2016), `tally_toNat` / `counts_toNat` (the scatter-add of ones tallies), `positions_toNat` (the running sum of the tallies is
  `64 (row k) + col k`, by the counting lemmas on `cnt`), and `rows_apply` / `cols_apply` (the floor division, the
  sign-following remainder and the from-the-end correction act on small non-negative words as the natural-number
  division and remainder).
-/
import proofs.«176202_j4166118277508_2_alg».proof.Proof.RefTerms
import proofs.«176202_j4166118277508_2_alg».proof.Proof.TrilCount
import proofs.«176202_j4166118277508_2_alg».proof.Proof.LibCumsum
import proofs.«176202_j4166118277508_2_alg».proof.Proof.LibScatterCount
import proofs.«176202_j4166118277508_2_alg».proof.Proof.IdxWords
import Idealize.ShloMosaic.Lib.ValueIdx

noncomputable section

open scoped BigOperators

namespace Cert.Tril.Index

open Idealize.ShloMosaic Idealize.ShloMosaic.ValueIdx Cert.ReferenceIdeal Cert.ReferenceIdeal.Terms

variable [Cert.ReferenceIdeal.Facts]
open Facts₀ Facts

/-- The running count at flat position `p` is `cnt p`: the running sum of the selection bits, which together are
    at most 4096 and so never wrap around. -/
theorem running_toNat (p : Fin 4096) : (running (F := Ideal) (ix1 p)).toNat = Cert.Tril.cnt p.val := by
  have hsum : ∑ q : Fin 4096, (flat (F := Ideal) (ix1 q)).toNat < 2 ^ 32 := by
    rw [Finset.sum_congr rfl (fun q _ => Words.flat_toNat q)]
    exact Cert.Tril.sum_sel_lt
  unfold running
  rw [Lib.cumsum4096_toNat (flat (F := Ideal)) zero0 reduceWindows_S4096_S4096_w4096s1p4095_0 h_S_ rfl hsum p,
    Finset.sum_congr rfl (fun q _ => Words.flat_toNat q)]
  exact (Cert.Tril.cnt_eq_sum_fin p).symm

/-- A running count is at most 2016, far below `2 ^ 31`: it is not negative as a signed word. -/
theorem running_lt (p : Fin 4096) : (running (F := Ideal) (ix1 p)).toNat < 2 ^ 31 := by
  rw [running_toNat p]
  have := Cert.Tril.cnt_le p.val p.isLt
  omega

/-- So clipping it below at zero and counting a negative value from the end both leave it alone: the bin a position
    is tallied in is its running count. -/
theorem wrapped_toNat (p : Fin 4096) : (wrapped (F := Ideal) (ix1 p)).toNat = Cert.Tril.cnt p.val := by
  rw [Words.wrapped_eq (ix1 p) (running_lt p), running_toNat p]

/-- The bin numbers as a 4096 x 1 array: the entry at `(p, 0)` is the bin of position `p`. -/
theorem binIdx_apply (p : Fin 4096) :
    broadcastInDim S4096x1 ![0] bcast_S4096_S4096x1_0 (wrapped (F := Ideal)) (ix2 p (0 : Fin 1))
      = wrapped (F := Ideal) (ix1 p) := by
  show wrapped (F := Ideal) _ = wrapped (F := Ideal) _
  congr 1
  funext a
  refine Fin.ext ?_
  match a with
  | ⟨0, _⟩ => rfl

/-- Adding a one into bin `idx[p, 0]` for each of the 4096 positions `p`, starting from 2016 empty bins, when the bin of
    position `p` is its running count: bin `k` ends up holding the number of positions whose running count is `k`. -/
theorem tally_toNat (idx : IVec S4096x1 32)
    (hbin : ∀ p : Fin 4096, (idx (ix2 p (0 : Fin 1))).toNat = Cert.Tril.cnt p.val) (k : Fin 2016) :
    (Host.scatter scatter_S2016_S4096x1_S4096_n_0_0_1 IntOp.addi (spread (constantI S_ 32 0#32)) idx
        (spread4096 (constantI S_ 32 1#32)) (ix1 k)).toNat
      = (Finset.univ.filter (fun p : Fin 4096 => Cert.Tril.cnt p.val = k.val)).card := by
  have hidx : ∀ p : Fin 4096, (idx (ix2 p (0 : Fin 1))).toNat < 2 ^ 31 := fun p => by
    rw [hbin p]
    have := Cert.Tril.cnt_le p.val p.isLt
    omega
  rw [Lib.scatterCount_toNat scatter_S2016_S4096x1_S4096_n_0_0_1 rfl rfl rfl rfl
    (spread (constantI S_ 32 0#32)) idx (spread4096 (constantI S_ 32 1#32)) (fun _ => rfl) (fun _ => rfl) hidx k]
  refine congrArg Finset.card (Finset.filter_congr fun p _ => ?_)
  rw [hbin p]

/-- The tally in bin `k` is the number of flat positions whose running count is `k`. -/
theorem counts_toNat (k : Fin 2016) :
    (counts (F := Ideal) (ix1 k)).toNat
      = (Finset.univ.filter (fun p : Fin 4096 => Cert.Tril.cnt p.val = k.val)).card := by
  have hbin : ∀ p : Fin 4096,
      (broadcastInDim S4096x1 ![0] bcast_S4096_S4096x1_0 (wrapped (F := Ideal)) (ix2 p (0 : Fin 1))).toNat
        = Cert.Tril.cnt p.val := fun p => by rw [binIdx_apply p, wrapped_toNat p]
  unfold counts
  generalize broadcastInDim S4096x1 ![0] bcast_S4096_S4096x1_0 (wrapped (F := Ideal)) = idx at hbin ⊢
  exact tally_toNat idx hbin k

/-- The running sum of the tallies at `k` is the number of flat positions whose running count is at most `k`, which
    is the flat position `64 (row k) + col k` of selected entry number `k`. -/
theorem positions_toNat (k : Fin 2016) :
    (positions (F := Ideal) (ix1 k)).toNat = 64 * Cert.Tril.row k.val + Cert.Tril.col k.val := by
  -- all the tallies together count each flat position at most once: at most 4096
  have hsum : ∑ q : Fin 2016, (counts (F := Ideal) (ix1 q)).toNat < 2 ^ 32 := by
    rw [Finset.sum_congr rfl (fun q _ => counts_toNat q)]
    have hall : (Finset.univ.filter (fun k' : Fin 2016 => k'.val ≤ 2015)) = Finset.univ :=
      Finset.filter_true_of_mem (fun k' _ => by have := k'.isLt; omega)
    have h := Cert.Tril.sum_card_cnt_eq 2015 (by norm_num)
    rw [hall] at h
    rw [h]
    have hle := Finset.card_le_univ (Finset.univ.filter (fun p : Fin 4096 => Cert.Tril.cnt p.val ≤ 2015))
    rw [Fintype.card_fin] at hle
    omega
  unfold positions
  rw [Lib.cumsum2016_toNat (counts (F := Ideal)) zero0 reduceWindows_S2016_S2016_w2016s1p2015_0 h_S_ rfl hsum k,
    Finset.sum_congr rfl (fun q _ => counts_toNat q), Cert.Tril.sum_card_cnt_eq k.val k.isLt,
    Cert.Tril.card_cnt_le k.val k.isLt]

/-- The row word of entry `k`: the flat position divided by 64, reduced modulo 64 (it is already below 64), and not
    negative. -/
theorem rows_apply (k : Fin 2016) : rows (F := Ideal) (ix1 k) = BitVec.ofNat 32 (Cert.Tril.row k.val) := by
  have hk := k.isLt
  have hr := Cert.Tril.row_lt hk
  have hc := Cert.Tril.col_lt_row hk
  have hpos := positions_toNat k
  have hA : floorDiv (positions (F := Ideal)) (constantI S_ 32 64#32) (ix1 k)
      = BitVec.ofNat 32 (Cert.Tril.row k.val) := by
    rw [Words.floorDiv_64 (positions (F := Ideal)) (ix1 k) (by rw [hpos]; omega), hpos]
    congr 1
    omega
  have hAn : (floorDiv (positions (F := Ideal)) (constantI S_ 32 64#32) (ix1 k)).toNat = Cert.Tril.row k.val := by
    rw [hA, BitVec.toNat_ofNat]
    exact Nat.mod_eq_of_lt (by omega)
  have hB : remainder (floorDiv (positions (F := Ideal)) (constantI S_ 32 64#32)) (constantI S_ 32 64#32) (ix1 k)
      = BitVec.ofNat 32 (Cert.Tril.row k.val) := by
    rw [Words.remainder_64 (floorDiv (positions (F := Ideal)) (constantI S_ 32 64#32)) (ix1 k) (by rw [hAn]; omega), hAn]
    congr 1
    exact Nat.mod_eq_of_lt hr
  have hBn : (remainder (floorDiv (positions (F := Ideal)) (constantI S_ 32 64#32)) (constantI S_ 32 64#32)
      (ix1 k)).toNat = Cert.Tril.row k.val := by
    rw [hB, BitVec.toNat_ofNat]
    exact Nat.mod_eq_of_lt (by omega)
  unfold rows
  rw [Words.wrap64_of_nonneg
    (remainder (floorDiv (positions (F := Ideal)) (constantI S_ 32 64#32)) (constantI S_ 32 64#32)) (ix1 k)
    (by rw [hBn]; omega), hB]

/-- The column word of entry `k`: the flat position (divided by one) reduced modulo 64, and not negative. -/
theorem cols_apply (k : Fin 2016) : cols (F := Ideal) (ix1 k) = BitVec.ofNat 32 (Cert.Tril.col k.val) := by
  have hk := k.isLt
  have hr := Cert.Tril.row_lt hk
  have hc := Cert.Tril.col_lt_row hk
  have hpos := positions_toNat k
  have hA : floorDiv (positions (F := Ideal)) (constantI S_ 32 1#32) (ix1 k) = positions (F := Ideal) (ix1 k) :=
    Words.floorDiv_1 (positions (F := Ideal)) (ix1 k) (by rw [hpos]; omega)
  have hAn : (floorDiv (positions (F := Ideal)) (constantI S_ 32 1#32) (ix1 k)).toNat
      = 64 * Cert.Tril.row k.val + Cert.Tril.col k.val := by rw [hA, hpos]
  have hB : remainder (floorDiv (positions (F := Ideal)) (constantI S_ 32 1#32)) (constantI S_ 32 64#32) (ix1 k)
      = BitVec.ofNat 32 (Cert.Tril.col k.val) := by
    rw [Words.remainder_64 (floorDiv (positions (F := Ideal)) (constantI S_ 32 1#32)) (ix1 k) (by rw [hAn]; omega), hAn]
    congr 1
    omega
  have hBn : (remainder (floorDiv (positions (F := Ideal)) (constantI S_ 32 1#32)) (constantI S_ 32 64#32)
      (ix1 k)).toNat = Cert.Tril.col k.val := by
    rw [hB, BitVec.toNat_ofNat]
    exact Nat.mod_eq_of_lt (by omega)
  unfold cols
  rw [Words.wrap64_of_nonneg
    (remainder (floorDiv (positions (F := Ideal)) (constantI S_ 32 1#32)) (constantI S_ 32 64#32)) (ix1 k)
    (by rw [hBn]; omega), hB]

end Cert.Tril.Index

end
-- ==== Proof.lean ====
/-
  Pairwise feature interactions. For each sample b the 64 embeddings of 128 features are multiplied pairwise
  (a Gram matrix), and the 2016 entries strictly below the diagonal are listed row by row: entry number
  k = i(i-1)/2 + j, j < i, is the inner product of embeddings i and j.

  The kernel, one batch tile of 256 samples per grid point, forms the tile's Gram tensor by one batched
  contraction and copies, for each row i = 1..63, the first i columns of row i to the columns
  i(i-1)/2 .. i(i-1)/2 + i - 1 of the output tile: sixty-three pieces that tile the [256, 2016] block, each
  piece the function "entry k of sample b" on its rectangle; the tiles' blocks tile the output array.

  The reference forms the whole Gram tensor and gathers it at index pairs it computes: it flattens the
  mask "column < row" to 4096 positions, takes its running count, tallies how many positions have each
  count, and takes the running sum of the tallies, which for entry k is the number of positions whose
  count is at most k, that is the flat position 64·i + j of the k-th selected cell; a floor division and a
  remainder by 64 give (i, j). The counting identity is proved on the naturals; the 32-bit words never
  overflow (every number is at most 4096).

  At the ideal instance both results are therefore the same function of the argument, entry by entry: the
  sum over the 128 features d of x(b, row k, d) · x(b, col k, d). No law of the extended reals beyond
  reading both contractions as that sum is needed, so the inputs' finiteness is not used. The ideal pass
  rewrote nothing. The two kernels' frames are the frame runs over the body's run, with the cover of the output
  block by the sixty-three pieces proved by arithmetic on the column ranges; the reference's frame is its run.
-/
import proofs.«176202_j4166118277508_2_alg».proof.Defs
import proofs.«176202_j4166118277508_2_alg».proof.Proof.Gen.Kernel
import proofs.«176202_j4166118277508_2_alg».proof.Proof.Gen.KernelIdeal
import proofs.«176202_j4166118277508_2_alg».proof.Proof.Gen.ReferenceIdeal
import proofs.«176202_j4166118277508_2_alg».proof.Proof.Gen.Pre_finite_inputs
import proofs.«176202_j4166118277508_2_alg».proof.Proof.FrameK
import proofs.«176202_j4166118277508_2_alg».proof.Proof.FrameKI
import proofs.«176202_j4166118277508_2_alg».proof.Proof.KernValue
import proofs.«176202_j4166118277508_2_alg».proof.Proof.RefRun
import proofs.«176202_j4166118277508_2_alg».proof.Proof.RefValue
import proofs.«176202_j4166118277508_2_alg».proof.Proof.RefIndex
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Both programs end with the pairwise-interaction function of the (shared) argument in their result arrays. -/
theorem algebraic : Cert.algebraic_KernelIdeal_ReferenceIdeal := by
  intro m ρ m' ρ' _ hagree
  refine ⟨_, Cert.Tril.Kern.run m ρ, ?_⟩
  refine (θ_run Cert.ReferenceIdeal.defs _ _).mono (fun _ h c => ⟨(h c).1.trans ?_, (h c).2⟩)
    (Cert.ReferenceIdeal.RefRun.run (F := Ideal) m' ρ')
  rw [hagree c]
  exact Cert.ReferenceIdeal.RefValue.out_eq_gram Cert.Tril.Index.rows_apply Cert.Tril.Index.cols_apply _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
